-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x128 : Shape := ⟨2, ![256, 128]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S8192x256 .f32) (main_arg1 : FVec F S8192x8192 .f32) (main_arg2 : FVec F S256x128 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S8192x256 : Shape := ⟨2, ![8192, 256]⟩
abbrev S8192x8192 : Shape := ⟨2, ![8192, 8192]⟩
abbrev S256x128 : Shape := ⟨2, ![256, 128]⟩
abbrev S8192x128 : Shape := ⟨2, ![8192, 128]⟩
abbrev S1024x256 : Shape := ⟨2, ![1024, 256]⟩
abbrev S1024x128 : Shape := ⟨2, ![1024, 128]⟩
abbrev S256x8192 : Shape := ⟨2, ![256, 8192]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x128, .f32⟩
  | .hbm, ⟨3, _⟩ => ⟨S8192x128, .f32⟩
  | .hbm, ⟨4, _⟩ => ⟨S8192x128, .f32⟩
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S1024x128, .f32⟩
  | .local _ .vmem, ⟨4, _⟩ => ⟨S1024x128, .f32⟩
  | .local _ .vmem, ⟨5, _⟩ => ⟨S8192x128, .f32⟩
  | .local _ .vmem, ⟨6, _⟩ => ⟨S256x128, .f32⟩
  | .local _ .vmem, ⟨7, _⟩ => ⟨S256x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def k1_mult1 (i : grid1.Coords) : BitVec 32 :=
  let arg0 : BitVec 32 := BitVec.ofNat 32 (i 0).val
  let c256_i32 : BitVec 32 := 256#32
  let v0 : BitVec 32 := Scalar.muli arg0 c256_i32
  v0
def k1_off1 (i : grid1.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v4 : Index := Scalar.indexCast v1
  let c0_1 : Index := 0#32
  ![v4.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S8192x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1024x128_S1024x128_0_0 : ∀ a, (![0, 0] : Fin 2 → Nat) a + S1024x128.size a ≤ S1024x128.size a
  h_S1024x128 : 0 < S1024x128.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S256x128_S256x128 : S256x128.ShapeCasts S256x128
  reduces_S256x8192_S256 : S256x8192.Reduces [1] S256
  shapeCasts_S256_S256x1 : S256.ShapeCasts S256x1
  broadcasts_S256x1_S256x8192 : S256x1.Broadcasts S256x8192
  broadcasts_S256x1_S256x128 : S256x1.Broadcasts S256x128
  dot_S1024x256_S256x128_S1024x128_1_0_0_1_n_n_wf : DotDims.WF S1024x256 S256x128 S1024x128 [1] [0] [0] [1] [] []
  dot_S256x128_S8192x128_S256x8192_1_1_0_0_n_n_wf : DotDims.WF S256x128 S8192x128 S256x8192 [1] [1] [0] [0] [] []
  dot_S256x8192_S8192x128_S256x128_1_0_0_1_n_n_wf : DotDims.WF S256x8192 S8192x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hrank1 : 0 < grid1.rank
  k1_mult1_dvd : ∀ i : grid1.Coords, 256 ∣ (k1_mult1 i).toNat
  k1_off1_inb : ∀ i : grid1.Coords, ∀ a, (k1_off1 i) a + S256x128.size a ≤ S8192x128.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S8192x128.size a
  hwx1_0 : ∀ i : grid1.Coords, EltTy.bits .f32 = 32 ∨ (Rect.block (s := S8192x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S8192x128.size a
  hwx1_1 : ∀ i : grid1.Coords, EltTy.bits .f32 = 32 ∨ (Rect.block (s := S8192x128) S256x128.size (cc1_transform_1 i) (hinb1_1 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S8192x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S256x128 : Shape := ⟨2, ![256, 128]⟩
abbrev S8192x128 : Shape := ⟨2, ![8192, 128]⟩
abbrev S128x8192 : Shape := ⟨2, ![128, 8192]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x128, .f32⟩
  | .hbm, ⟨3, _⟩ => ⟨S8192x128, .f32⟩
  | .hbm, ⟨4, _⟩ => ⟨S128x8192, .f32⟩
  | .hbm, ⟨5, _⟩ => ⟨S8192x8192, .f32⟩
  | .hbm, ⟨6, _⟩ => ⟨S_, .f32⟩
  | .hbm, ⟨7, _⟩ => ⟨S_, .f32⟩
  | .hbm, ⟨8, _⟩ => ⟨S8192x8192, .f32⟩
  | .hbm, ⟨9, _⟩ => ⟨S8192x8192, .i1⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192x1, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S8192x8192, .f32⟩
  | .hbm, ⟨27, _⟩ => ⟨S8192x8192, .f32⟩
  | .hbm, ⟨28, _⟩ => ⟨S8192x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x256_S256x128_S8192x128_1_0_0_1_n_n_wf : DotDims.WF S8192x256 S256x128 S8192x128 [1] [0] [0] [1] [] []
  dot_S8192x128_S128x8192_S8192x8192_1_0_0_1_n_n_wf : DotDims.WF S8192x128 S128x8192 S8192x8192 [1] [0] [0] [1] [] []
  dot_S8192x8192_S8192x128_S8192x128_1_0_0_1_n_n_wf : DotDims.WF S8192x8192 S8192x128 S8192x128 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.LibMatChain.lean ====
/-
  General lemmas: products of matrices over the extended reals, and when they associate.

  On the extended reals a product does not distribute over a sum once an infinity is among the terms, so a chain of
  matrix products cannot be regrouped in general. It can when every entry is a real number: then each sum and each
  product is the coercion of the same expression over the reals, where the finite sums commute.

  * `IsReal`: an extended real that is the coercion of a real; `isReal_of_abs_lt_top`: one whose absolute value
    max x (-x) lies strictly below +∞ is such;
  * `coe_sum`: the coercion of a finite sum of reals is the sum of the coercions;
  * `sum_mul_sum_assoc`: for real families, Σ_k x k · (Σ_l A k l · B l) = Σ_l (Σ_k x k · A k l) · B l;
  * `matProd`: the product of an [a, k] by a [k, n] array as an [a, n] array, entry (p, j) the sum over q of
    x (p, q) · w (q, j); `matProd_assoc`: x · (A · B) = (x · A) · B when all three hold reals only;
  * `matProd_congr`: entry (p, j) reads only row p of the left factor and column j of the right one.
  Nothing here mentions a program: the extents are variables.
-/
import Idealize.ShloMosaic.Lib.ValueIdx
import Idealize.ShloMosaic.PureOps.Ideal.Laws

noncomputable section

namespace Cert.LibMatChain

open Idealize.ShloMosaic Idealize.ShloMosaic.ValueIdx

/-- An extended real that is a real number. -/
def IsReal (x : EReal) : Prop := ∃ r : ℝ, x = (r : EReal)

/-- An extended real whose absolute value, max x (-x), is strictly below +∞ is a real number: at either infinity the
    maximum is +∞. -/
theorem isReal_of_abs_lt_top {x : EReal} (h : max x (-x) < ⊤) : IsReal x := by
  induction x using EReal.rec with
  | bot => exact absurd h (by simp)
  | coe r => exact ⟨r, rfl⟩
  | top => exact absurd h (by simp)

/-- The coercion of a finite sum of reals is the sum of the coercions. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- For families of reals, a vector times the column j of a product A · B is the vector times A, times that column of
    B: both are the double sum over (k, l) of x k · A k l · B l, taken over the reals. -/
theorem sum_mul_sum_assoc {κ ι : Type*} [Fintype κ] [Fintype ι] (x : κ → EReal) (A : κ → ι → EReal) (B : ι → EReal)
    (hx : ∀ k, IsReal (x k)) (hA : ∀ k l, IsReal (A k l)) (hB : ∀ l, IsReal (B l)) :
    ∑ k, x k * ∑ l, A k l * B l = ∑ l, (∑ k, x k * A k l) * B l := by
  choose x' hx' using hx
  choose A' hA' using hA
  choose B' hB' using hB
  simp only [hx', hA', hB', ← EReal.coe_mul, ← coe_sum]
  refine congrArg _ ?_
  simp only [Finset.mul_sum, Finset.sum_mul]
  rw [Finset.sum_comm]
  exact Finset.sum_congr rfl fun l _ => Finset.sum_congr rfl fun k _ => (mul_assoc _ _ _).symm

variable {a k l n : ℕ}

/-- The product of an [a, k] by a [k, n] array: entry (p, j) is the sum over q of x (p, q) · w (q, j). -/
def matProd (x : (⟨2, ![a, k]⟩ : Shape).Idx → EReal) (w : (⟨2, ![k, n]⟩ : Shape).Idx → EReal) :
    (⟨2, ![a, n]⟩ : Shape).Idx → EReal :=
  fun i => ∑ q : Fin k, x (ix2 (i 0) q) * w (ix2 q (i 1))

theorem matProd_ix2 (x : (⟨2, ![a, k]⟩ : Shape).Idx → EReal) (w : (⟨2, ![k, n]⟩ : Shape).Idx → EReal) (p : Fin a) (j : Fin n) :
    matProd x w (ix2 p j) = ∑ q : Fin k, x (ix2 p q) * w (ix2 q j) := rfl

/-- Entry (p, j) of a product reads only row p of the left factor and column j of the right one. -/
theorem matProd_congr {a' : ℕ} (X : (⟨2, ![a, k]⟩ : Shape).Idx → EReal) (W : (⟨2, ![k, n]⟩ : Shape).Idx → EReal)
    (x : (⟨2, ![a', k]⟩ : Shape).Idx → EReal) (w : (⟨2, ![k, n]⟩ : Shape).Idx → EReal) (p : Fin a') (p' : Fin a) (j : Fin n)
    (hx : ∀ q : Fin k, x (ix2 p q) = X (ix2 p' q)) (hw : ∀ q : Fin k, w (ix2 q j) = W (ix2 q j)) :
    matProd x w (ix2 p j) = matProd X W (ix2 p' j) := by
  rw [matProd_ix2, matProd_ix2]
  exact Finset.sum_congr rfl fun q _ => by rw [hx q, hw q]

/-- Three arrays of reals: x · (A · B) = (x · A) · B. -/
theorem matProd_assoc (x : (⟨2, ![a, k]⟩ : Shape).Idx → EReal) (A : (⟨2, ![k, l]⟩ : Shape).Idx → EReal)
    (B : (⟨2, ![l, n]⟩ : Shape).Idx → EReal) (hx : ∀ i, IsReal (x i)) (hA : ∀ i, IsReal (A i)) (hB : ∀ i, IsReal (B i)) :
    matProd x (matProd A B) = matProd (matProd x A) B := by
  funext i
  obtain ⟨p, j, rfl⟩ : ∃ (p : Fin a) (j : Fin n), i = ix2 p j := ⟨i 0, i 1, eq_ix2 i⟩
  rw [matProd_ix2, matProd_ix2]
  simp only [matProd_ix2]
  exact sum_mul_sum_assoc (fun q => x (ix2 p q)) (fun q r => A (ix2 q r)) (fun r => B (ix2 r j))
    (fun q => hx _) (fun q r => hA _) (fun r => hB _)

end Cert.LibMatChain

end
-- ==== Proof.LibSelfAttention.lean ====
/-
  Dense self-attention over the rows of one array, on the extended reals.

  For an [N, D] array x and a slope c: the score of rows i and n is the inner product of the two rows; the activation
  is the leaky rectifier of the score (x itself when 0 ≤ x, c · x otherwise); the weight of n for i is
  exp (activation − the row's maximum); the total is the sum of the row's weights. Two arrangements of the result:

  * mix, then normalise:  (Σ_n weight i n · x (n, d)) / total i,
  * normalise, then mix:   Σ_n (weight i n / total i) · x (n, d).

  On the extended reals a quotient does not pass through a sum in general. When every entry of x and the slope are
  real numbers, every score, activation, maximum (N > 0) and weight is a real, every weight is positive, so the total
  is a positive real, and both arrangements are the coercion of one expression over the reals.

  General lemmas: nothing here mentions a program, the extents N and D and the slope are variables. It builds on the
  real-number predicate and the coercion of finite sums of the matrix-chain lemma file, which it imports.
-/
import Idealize.ShloMosaic.Lib.ValueIdx
import Idealize.ShloMosaic.PureOps.Ideal.Laws
import proofs.«141375_j41180146434555_2_alg».proof.Proof.LibMatChain

noncomputable section

namespace Cert.Attn

open Idealize.ShloMosaic Idealize.ShloMosaic.ValueIdx Cert.LibMatChain

/-! ## Real extended reals are closed under the operations used -/

theorem isReal_coe (r : ℝ) : IsReal (r : EReal) := ⟨r, rfl⟩

theorem isReal_zero : IsReal (0 : EReal) := ⟨0, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_max {x y : EReal} (hx : IsReal x) (hy : IsReal y) : IsReal (max x y) := by
  rcases max_choice x y with h | h <;> rw [h] <;> assumption

theorem isReal_sum {ι : Type*} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

/-- The fold of max from −∞ over a nonempty finite family of reals is a real. -/
theorem isReal_foldMax {ι : Type*} [DecidableEq ι] (s : Finset ι) (f : ι → EReal) (hf : ∀ i, IsReal (f i)) :
    s.fold max ⊥ f = ⊥ ∧ s = ∅ ∨ IsReal (s.fold max ⊥ f) := by
  induction s using Finset.induction_on with
  | empty => exact Or.inl ⟨Finset.fold_empty, rfl⟩
  | insert a s ha ih =>
    right
    rw [Finset.fold_insert ha]
    rcases ih with ⟨h, -⟩ | h
    · rw [h, max_bot_right]; exact hf a
    · exact isReal_max (hf a) h

/-! ## The attention of an array with itself -/

variable {N D : ℕ}

/-- The score of rows i and n: their inner product. -/
def score (x : (⟨2, ![N, D]⟩ : Shape).Idx → EReal) (i n : Fin N) : EReal := ∑ q : Fin D, x (ix2 i q) * x (ix2 n q)

/-- The leaky rectifier with slope c: x where 0 ≤ x, c · x elsewhere. -/
def leaky (c x : EReal) : EReal := Scalar.select (Ideal.cmp .oge x 0) x (c * x)

/-- The activation of the score. -/
def act (c : EReal) (x : (⟨2, ![N, D]⟩ : Shape).Idx → EReal) (i n : Fin N) : EReal := leaky c (score x i n)

/-- The largest activation of row i (−∞ for an empty row). -/
def rowMax (c : EReal) (x : (⟨2, ![N, D]⟩ : Shape).Idx → EReal) (i : Fin N) : EReal :=
  (Finset.univ : Finset (Fin N)).fold max ⊥ (fun n => act c x i n)

/-- The weight of row n for row i, before normalisation. -/
def weight (c : EReal) (x : (⟨2, ![N, D]⟩ : Shape).Idx → EReal) (i n : Fin N) : EReal :=
  Ideal.exp (act c x i n - rowMax c x i)

/-- The sum of row i's weights. -/
def total (c : EReal) (x : (⟨2, ![N, D]⟩ : Shape).Idx → EReal) (i : Fin N) : EReal := ∑ n : Fin N, weight c x i n

/-- Entry (i, d) of the weighted sum of the rows, divided by the total afterwards. -/
def mixThenNormAt (c : EReal) (x : (⟨2, ![N, D]⟩ : Shape).Idx → EReal) (i : Fin N) (d : Fin D) : EReal :=
  Ideal.div (∑ n : Fin N, weight c x i n * x (ix2 n d)) (total c x i)

/-- Entry (i, d) of the sum of the rows under the normalised weights. -/
def normThenMixAt (c : EReal) (x : (⟨2, ![N, D]⟩ : Shape).Idx → EReal) (i : Fin N) (d : Fin D) : EReal :=
  ∑ n : Fin N, Ideal.div (weight c x i n) (total c x i) * x (ix2 n d)

/-- Mix, then normalise, as an [N, D] array. -/
def mixThenNorm (c : EReal) (x : (⟨2, ![N, D]⟩ : Shape).Idx → EReal) : (⟨2, ![N, D]⟩ : Shape).Idx → EReal :=
  fun j => mixThenNormAt c x (j 0) (j 1)

/-- Normalise, then mix, as an [N, D] array. -/
def normThenMix (c : EReal) (x : (⟨2, ![N, D]⟩ : Shape).Idx → EReal) : (⟨2, ![N, D]⟩ : Shape).Idx → EReal :=
  fun j => normThenMixAt c x (j 0) (j 1)

theorem mixThenNorm_ix2 (c : EReal) (x : (⟨2, ![N, D]⟩ : Shape).Idx → EReal) (i : Fin N) (d : Fin D) :
    mixThenNorm c x (ix2 i d) = mixThenNormAt c x i d := rfl

theorem normThenMix_ix2 (c : EReal) (x : (⟨2, ![N, D]⟩ : Shape).Idx → EReal) (i : Fin N) (d : Fin D) :
    normThenMix c x (ix2 i d) = normThenMixAt c x i d := rfl

/-! ## Finiteness -/

theorem isReal_leaky {c x : EReal} (hc : IsReal c) (hx : IsReal x) : IsReal (leaky c x) := by
  unfold leaky Scalar.select
  split
  · exact hx
  · exact isReal_mul hc hx

section Real

variable (c : EReal) (x : (⟨2, ![N, D]⟩ : Shape).Idx → EReal) (hc : IsReal c) (hx : ∀ j, IsReal (x j))
include hc hx

theorem isReal_score (i n : Fin N) : IsReal (score x i n) :=
  isReal_sum _ _ fun q => isReal_mul (hx _) (hx _)

theorem isReal_act (i n : Fin N) : IsReal (act c x i n) := isReal_leaky hc (isReal_score c x hc hx i n)

theorem isReal_rowMax (i : Fin N) : IsReal (rowMax c x i) := by
  rcases isReal_foldMax (Finset.univ : Finset (Fin N)) (fun n => act c x i n) (fun n => isReal_act c x hc hx i n) with ⟨-, h⟩ | h
  · exact absurd (Finset.mem_univ i) (by rw [h]; exact Finset.notMem_empty i)
  · exact h

/-- Every weight is the coercion of a positive real. -/
theorem weight_pos (i n : Fin N) : ∃ r : ℝ, 0 < r ∧ weight c x i n = (r : EReal) := by
  obtain ⟨r, hr⟩ := isReal_sub (isReal_act c x hc hx i n) (isReal_rowMax c x hc hx i)
  exact ⟨Real.exp r, Real.exp_pos r, by unfold weight; rw [hr]; rfl⟩

/-- The total is the coercion of a positive real. -/
theorem total_pos (i : Fin N) : ∃ r : ℝ, 0 < r ∧ total c x i = (r : EReal) := by
  choose w hw0 hw using fun n => weight_pos c x hc hx i n
  haveI : Nonempty (Fin N) := ⟨i⟩
  refine ⟨∑ n : Fin N, w n, Finset.sum_pos (fun n _ => hw0 n) Finset.univ_nonempty, ?_⟩
  unfold total
  rw [coe_sum]
  exact Finset.sum_congr rfl fun n _ => hw n

/-- The two arrangements agree when the slope and every entry are reals. -/
theorem normThenMix_eq_mixThenNorm : normThenMix c x = mixThenNorm c x := by
  funext j
  show normThenMixAt c x (j 0) (j 1) = mixThenNormAt c x (j 0) (j 1)
  generalize j 0 = i
  generalize j 1 = d
  unfold normThenMixAt mixThenNormAt
  obtain ⟨l, hl0, hl⟩ := total_pos c x hc hx i
  choose w _ hw using fun n => weight_pos c x hc hx i n
  choose v hv using fun n : Fin N => hx (ix2 n d)
  rw [hl]
  simp only [Ideal.div_coe (ne_of_gt hl0), hw, hv, ← EReal.coe_mul, ← coe_sum]
  refine congrArg _ ?_
  rw [Finset.sum_mul]
  exact Finset.sum_congr rfl fun n _ => by ring

end Real

end Cert.Attn

end
-- ==== Proof.Consts.lean ====
/-
  The two float words the programs share, read on the extended reals: the slope of the leaky rectifier (the word of
  0.2 in single precision) is a real number, and the word with sign 1, exponent all ones and fraction 0 is −∞.
-/
import Idealize.ShloMosaic.PureOps.Ideal.Laws
import proofs.«141375_j41180146434555_2_alg».proof.Proof.LibMatChain

noncomputable section

namespace Cert.Attn

open Idealize.ShloMosaic Cert.LibMatChain

/-- The slope of the leaky rectifier: what the single-precision word 0x3E4CCCCD denotes. -/
def slope : EReal := Ideal.ofBits .f32 0x3E4CCCCD#32

/-- The slope is a real number (a normal pattern: its exponent field is not all ones). -/
theorem slope_real : IsReal slope := by
  unfold slope Ideal.ofBits Ideal.ieee
  simp only []
  split
  · rename_i h; exact absurd h (by decide)
  · split
    · exact ⟨_, rfl⟩
    · exact ⟨_, rfl⟩

/-- The initial value of both row maxima denotes −∞. -/
theorem negInf : Ideal.ofBits .f32 0xFF800000#32 = ⊥ := by simp [Ideal.ofBits, Ideal.ieee]

end Cert.Attn

end
-- ==== Proof.Finite.lean ====
/-
  From the precondition to real entries.

  The precondition is the conjunction, over the three argument arrays, of "every entry's absolute value lies strictly
  below +∞", each conjunct a reduction by "and" over all indices. An extended real whose absolute value max x (−x) is
  below +∞ is a real number, so under the precondition every entry of h and of W is real.
-/
import proofs.«141375_j41180146434555_2_alg».proof.Pre_finite_inputs
import proofs.«141375_j41180146434555_2_alg».proof.Proof.LibMatChain
import Idealize.ShloMosaic.Lib.ReduceAll
import Idealize.ShloMosaic.Lib.Affine
import Idealize.ShloMosaic.Lib.ValueIdx
import Idealize.ShloMosaic.PureOps.Ideal.Laws

noncomputable section

namespace Cert.Attn

open Idealize.ShloMosaic Cert.LibMatChain Cert.Pre_finite_inputs

instance scalarIdxSubsingleton : Subsingleton Cert.Pre_finite_inputs.S_.Idx := ⟨fun a b => funext fun d => d.elim0⟩

/-- One entry: the comparison |x| < +∞ answering 1 makes x a real number. -/
theorem isReal_of_abs_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  refine isReal_of_abs_lt_top ?_
  by_contra hn
  have : Ideal.cmp .olt (max x (-x)) ⊤ = 0#1 := by simp [Ideal.cmp, hn]
  rw [this] at h
  exact absurd h (by decide)

variable [Cert.Pre_finite_inputs.Facts]

/-- Under the precondition every entry of the first and of the third argument array is a real number. -/
theorem real_of_pre (a0 : FVec Ideal S8192x256 .f32) (a1 : FVec Ideal S8192x8192 .f32) (a2 : FVec Ideal S256x128 .f32)
    (h : Cert.Pre_finite_inputs.fn (F := Ideal) a0 a1 a2 = fun _ => 1#1) :
    (∀ j, IsReal (a0 j)) ∧ (∀ j, IsReal (a2 j)) := by
  have h0 := congrFun h ValueIdx.ix0
  dsimp only [Cert.Pre_finite_inputs.fn] at h0
  obtain ⟨h38, h12⟩ := IntOp.andi_eq_one.1 h0
  obtain ⟨h3, -⟩ := IntOp.andi_eq_one.1 h38
  exact ⟨fun j => isReal_of_abs_lt_inf (a0 j) (Host.reduce_andi_all _ _ _ _ _ h3 j),
    fun j => isReal_of_abs_lt_inf (a2 j) (Host.reduce_andi_all _ _ _ _ _ h12 j)⟩

end Cert.Attn

end
-- ==== Proof.KernelRun.lean ====
/-
  The idealized kernel's run with its result named.

  The program is two regions in a row. The contents of every buffer at the three boundaries are a fold from the launch
  memory: at the first region's exit its output array holds what its write-backs leave, at the second's its own.
  Every weakly fair execution terminates with the result buffer at the last boundary's contents and the three
  arguments as launched.
-/
import proofs.«141375_j41180146434555_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the two regions terminates, nothing faulting, with the result buffer at the contents
    the second region's exit leaves and the arguments as launched. -/
theorem run_named : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.KernelIdeal.RunValue

end
-- ==== Proof.LibDenseOps.lean ====
/-
  General lemmas: the operations of a dense layer read at an index written with `ix1` / `ix2`, at the ideal values.

  * a vector `[a]` cast to a column `[a, 1]`, and a column `[a, 1]` broadcast over `b` columns (the two "keepdims"
    layout steps around a row reduction);
  * a plain matrix product `[a, k] × [k, b]` into a zero accumulator as the sum over `Fin k` of the products;
  * a lane sum and a lane maximum of an `[a, b]` array (the reduction over axis 1) as a sum and a fold over `Fin b`;
  * the host's maximum-reduce over axis 1 as the same fold.
  Nothing here mentions a program: the extents are variables and the dimension records are hypotheses.
-/
import Idealize.ShloMosaic.Lib.ValueLayout
import Idealize.ShloMosaic.Lib.ValueIdx
import Idealize.ShloMosaic.PureOps.Ideal.Laws

noncomputable section

namespace Cert.LibDenseOps

open Idealize.ShloMosaic Idealize.ShloMosaic.ValueIdx

variable {α : Type}

/-- An `[a]` array cast to a column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix product of an `[a, k]` by a `[k, b]` array into the zero accumulator, whose dimension record contracts
    the left operand's columns against the right operand's rows (the four coordinate facts), is at `(p, j)` the sum over
    `q` of `L (p, q) · R (q, j)`. -/
theorem matmul_zero_ix2 {a k b : ℕ} {φ₁ φ₂ : FTy} (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, b]⟩ φ₂) (p : Fin a) (j : Fin b) :
    FloatOps.matmul D prec L R (constant ⟨2, ![a, b]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- The reduced index `p` of an `[a, b]` array with lane `c` put back on axis 1 is `(p, c)`. -/
theorem lift_lane {a b : ℕ} (h : (⟨2, ![a, b]⟩ : Shape).Reduces [1] (⟨1, ![a]⟩ : Shape)) (p : Fin a)
    (c : Fin ((⟨2, ![a, b]⟩ : Shape).size 1)) : h.lift (ix1 p) c = ix2 p (⟨c.val, c.isLt⟩ : Fin b) := by
  funext ax; apply Fin.ext
  fin_cases ax <;> rfl

/-- A lane sum of an `[a, b]` array, read at row `p`: the sum over the row. -/
theorem laneSum_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.add.neutral .f32 hφ) (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (lift_lane h p c)

/-- A lane maximum of an `[a, b]` array, read at row `p`: the fold of `max` over the row from the accumulator's value. -/
theorem laneMax_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun c => src (ix2 p c)) := by
  refine (Ideal.multiReduction_maximumf_single src acc h hφ hacc (ix1 p)).trans ?_
  have hf : (src ∘ h.lift (ix1 p)) = fun c : Fin b => src (ix2 p c) := funext fun c => congrArg src (lift_lane h p c)
  exact congrArg (fun f => Finset.fold max (Ideal.ofBits .f32 acc) f (Finset.univ : Finset (Fin b))) hf

/-- The host's reduce with a maximum body over axis 1 of an `[a, b]` array, read at row `p`: the same fold from the
    initial value. -/
theorem hostRowMax_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduce FloatOps.maximumf x init h' hu (ix1 p)
      = (Finset.univ : Finset (Fin b)).fold max (init (Shape.Idx.first hu)) (fun c => x (ix2 p c)) := by
  rw [Host.reduce_eq_fold_single FloatOps.maximumf x init h' h hu]
  have hf : (x ∘ h.lift (ix1 p)) = fun c : Fin b => x (ix2 p c) := funext fun c => congrArg x (lift_lane h p c)
  exact congrArg (fun f => Finset.fold max (init (Shape.Idx.first hu)) f (Finset.univ : Finset (Fin b))) hf

end Cert.LibDenseOps

end
-- ==== Proof.LibBlockOps.lean ====
/-
  General lemmas: the operations of a field-wise product of embeddings, read at an index written with `ix2` / `ix3`,
  at the ideal values.

  * an `[a, b]` array cast to `[a, b, 1]` and an `[a, b, 1]` array broadcast over `c` lanes (a per-field scalar spread
    along the embedding axis);
  * the sum over the MIDDLE axis of an `[a, b, c]` array as a sum over `Fin b`;
  * a slab of an `[a, b, c]` array cut along axis 0, and an `[a, 1, c]` array cast to `[a, c]`;
  * a matrix product `[a, k] × [b, k]` contracting both operands' LAST axes into a zero accumulator, as the sum over
    `Fin k` of the products;
  * the host's sum over the last axis of an `[a, b]` array and over the middle axis of an `[a, b, c]` array, from a
    rank-zero initial value, as that value plus the sum over the axis;
  * one field's contribution: the product of field `o`'s `[a, c]` slab of an `[a, b, c]` array with field `o`'s
    `[n, c]` slab of a `[b, n, c]` array, as the sum over the embedding axis.
  Nothing here mentions a program: the extents are variables and the dimension records are hypotheses.
-/
import Idealize.ShloMosaic.Lib.ValueLayout
import Idealize.ShloMosaic.Lib.ValueIdx
import Idealize.ShloMosaic.PureOps.Ideal.Laws

noncomputable section

namespace Cert.LibBlockOps

open Idealize.ShloMosaic Idealize.ShloMosaic.ValueIdx

variable {α : Type}

/-- An `[a, b]` array cast to `[a, b, 1]` reads, at `(p, f, u)`, the operand at `(p, f)`. -/
theorem shapeCast_ab_ab1_apply {a b : ℕ} (x : (⟨2, ![a, b]⟩ : Shape).Idx → α)
    (h : (⟨2, ![a, b]⟩ : Shape).ShapeCasts ⟨3, ![a, b, 1]⟩) (p : Fin a) (f : Fin b) (u : Fin 1) :
    shapeCast ⟨3, ![a, b, 1]⟩ x h (ix3 p f u) = x (ix2 p f) :=
  shapeCast_apply x h _ _ (by
    have hu : u.val = 0 := by omega
    rw [Shape.rowMajor_val_two, Shape.rowMajor_val_three]
    show p.val * b + f.val = (p.val * b + f.val) * 1 + u.val
    rw [hu, Nat.mul_one, Nat.add_zero])

/-- An `[a, b, 1]` array broadcast to `[a, b, c]` reads, at `(p, f, k)`, the operand at `(p, f, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (f : Fin b) (k : Fin c) :
    broadcastTo ⟨3, ![a, b, c]⟩ v h (ix3 p f k) = v (ix3 p f (0 : Fin 1)) := by
  refine broadcastTo_apply v h (ix3 p f k) (ix3 p f (0 : Fin 1)) fun ax => ?_
  match ax with
  | ⟨0, _⟩ =>
    show p.val = if a = 1 then 0 else p.val
    split
    · have := p.isLt; omega
    · rfl
  | ⟨1, _⟩ =>
    show f.val = if b = 1 then 0 else f.val
    split
    · have := f.isLt; omega
    · rfl
  | ⟨2, _⟩ => rfl

/-- The reduced index `(p, k)` of an `[a, b, c]` array with coordinate `f` put back on axis 1 is `(p, f, k)`. -/
theorem lift_mid {a b c : ℕ} (h : (⟨3, ![a, b, c]⟩ : Shape).Reduces [1] (⟨2, ![a, c]⟩ : Shape)) (p : Fin a) (k : Fin c)
    (f : Fin ((⟨3, ![a, b, c]⟩ : Shape).size 1)) : h.lift (ix2 p k) f = ix3 p (⟨f.val, f.isLt⟩ : Fin b) k := by
  funext ax; apply Fin.ext
  fin_cases ax <;> rfl

/-- The sum over the middle axis of an `[a, b, c]` array, read at `(p, k)`: the sum over `f` of the entries `(p, f, k)`. -/
theorem midSum_apply {a b c : ℕ} (src : FVec Ideal ⟨3, ![a, b, c]⟩ .f32) (acc : BitVec 32)
    (h : (⟨3, ![a, b, c]⟩ : Shape).Reduces [1] (⟨2, ![a, c]⟩ : Shape)) (hφ : FKind.Formats .f32)
    (hacc : acc = FKind.add.neutral .f32 hφ) (p : Fin a) (k : Fin c) :
    multiReduction .add [1] ⟨2, ![a, c]⟩ src acc h hφ hacc (ix2 p k) = ∑ f : Fin b, src (ix3 p f k) := by
  refine (Ideal.multiReduction_add_single src acc h hφ hacc (ix2 p k)).trans ?_
  exact Finset.sum_congr rfl fun f _ => congrArg src (lift_mid h p k f)

/-- The reduced index `p` of an `[a, b]` array with lane `c` put back on axis 1 is `(p, c)`. -/
theorem lift_last {a b : ℕ} (h : (⟨2, ![a, b]⟩ : Shape).Reduces [1] (⟨1, ![a]⟩ : Shape)) (p : Fin a)
    (c : Fin ((⟨2, ![a, b]⟩ : Shape).size 1)) : h.lift (ix1 p) c = ix2 p (⟨c.val, c.isLt⟩ : Fin b) := by
  funext ax; apply Fin.ext
  fin_cases ax <;> rfl

/-- The host's sum over the last axis of an `[a, b]` array, read at row `p`: the initial value plus the row's sum. -/
theorem hostLastSum_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (hu : 0 < (⟨0, ![]⟩ : Shape).numel) (p : Fin a) :
    Host.reduceAdd x init h' hu (ix1 p) = init ix0 + ∑ c : Fin b, x (ix2 p c) := by
  have h : (⟨2, ![a, b]⟩ : Shape).Reduces [1] (⟨1, ![a]⟩ : Shape) := ⟨h'.1, Nat.one_pos, h'.2⟩
  show Ideal.hostReduceAdd h' x (init (Shape.Idx.first hu)) (ix1 p) = _
  rw [Ideal.hostReduceAdd_single h' h, show Shape.Idx.first hu = ix0 from eq_ix0 _]
  exact congrArg (init ix0 + ·) (Finset.sum_congr rfl fun c _ => congrArg x (lift_last h p c))

/-- The host's sum over the middle axis of an `[a, b, c]` array, read at `(p, k)`: the initial value plus the sum over
    `f` of the entries `(p, f, k)`. -/
theorem hostMidSum_apply {a b c : ℕ} (x : FVec Ideal ⟨3, ![a, b, c]⟩ .f32) (init : (⟨0, ![]⟩ : Shape).Idx → Ideal .f32)
    (h' : (⟨3, ![a, b, c]⟩ : Shape).ReducesTo [1] (⟨2, ![a, c]⟩ : Shape)) (hu : 0 < (⟨0, ![]⟩ : Shape).numel)
    (p : Fin a) (k : Fin c) :
    Host.reduceAdd x init h' hu (ix2 p k) = init ix0 + ∑ f : Fin b, x (ix3 p f k) := by
  have h : (⟨3, ![a, b, c]⟩ : Shape).Reduces [1] (⟨2, ![a, c]⟩ : Shape) := ⟨h'.1, Nat.succ_pos 1, h'.2⟩
  show Ideal.hostReduceAdd h' x (init (Shape.Idx.first hu)) (ix2 p k) = _
  rw [Ideal.hostReduceAdd_single h' h, show Shape.Idx.first hu = ix0 from eq_ix0 _]
  exact congrArg (init ix0 + ·) (Finset.sum_congr rfl fun f _ => congrArg x (lift_mid h p k f))

/-- A rank-3 array cut along axis 0 from `o` reads, at `(j, b, e)`, the source at `(k, b, e)` with `k = o + j`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- An `[a, 1, c]` array cast to `[a, c]` reads, at `(p, k)`, the operand at `(p, 0, k)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (k : Fin c) :
    shapeCast ⟨2, ![a, c]⟩ x h (ix2 p k) = x (ix3 p (0 : Fin 1) k) :=
  shapeCast_apply x h _ _ (by
    rw [Shape.rowMajor_val_three, Shape.rowMajor_val_two]
    show (p.val * 1 + 0) * c + k.val = p.val * c + k.val
    rw [Nat.mul_one, Nat.add_zero])

/-- A matrix product of an `[a, k]` by a `[b, k]` array into the zero accumulator, whose dimension record contracts the
    LAST axis of each operand (the four coordinate facts), is at `(p, j)` the sum over `q` of `L (p, q) · R (j, q)`. -/
theorem matmul_zero_nt_ix2 {a k b : ℕ} {φ₁ φ₂ : FTy} (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (L : FVec Ideal ⟨2, ![a, k]⟩ φ₁) (R : FVec Ideal ⟨2, ![b, k]⟩ φ₂) (p : Fin a) (j : Fin b) :
    FloatOps.matmul D prec L R (constant ⟨2, ![a, b]⟩ .f32 0x00000000#32) (ix2 p j) = ∑ q : Fin k, L (ix2 p q) * R (ix2 j q) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 j q := funext fun ax => Fin.ext (by
    match ax with
    | ⟨0, _⟩ => exact hr0 _ _
    | ⟨1, _⟩ => exact (hr1 _ _).trans hq)
  rw [el, er]

/-- One field's contribution to a field-by-field product: field `o`'s `[a, c]` slab of `E : [a, b, c]` times field `o`'s
    `[n, c]` slab of `W : [b, n, c]`, contracted over the embedding axis into a zero accumulator, is at `(p, j)` the sum
    over `q` of `E (p, o, q) · W (o, j, q)`. -/
theorem fieldStep_apply {a b c n : ℕ} {φ₁ φ₂ : FTy} (D : DotDims ⟨2, ![a, c]⟩ ⟨2, ![n, c]⟩ ⟨2, ![a, n]⟩)
    (hr : D.contr.rank = 1) (hs : D.contr.size ⟨0, by omega⟩ = c)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (E : FVec Ideal ⟨3, ![a, b, c]⟩ φ₁) (W : FVec Ideal ⟨3, ![b, n, c]⟩ φ₂) (o : ℕ) (ho : o < b)
    (h1 : (⟨3, ![a, b, c]⟩ : Shape).Slices ![0, o, 0] ⟨3, ![a, 1, c]⟩) (c1 : (⟨3, ![a, 1, c]⟩ : Shape).ShapeCasts ⟨2, ![a, c]⟩)
    (h2 : (⟨3, ![b, n, c]⟩ : Shape).Slices ![o, 0, 0] ⟨3, ![1, n, c]⟩) (c2 : (⟨3, ![1, n, c]⟩ : Shape).ShapeCasts ⟨2, ![n, c]⟩)
    (p : Fin a) (j : Fin n) :
    FloatOps.matmul D prec (shapeCast ⟨2, ![a, c]⟩ (extractStridedSlice ⟨3, ![a, 1, c]⟩ ![0, o, 0] E h1) c1)
        (shapeCast ⟨2, ![n, c]⟩ (extractStridedSlice ⟨3, ![1, n, c]⟩ ![o, 0, 0] W h2) c2)
        (constant ⟨2, ![a, n]⟩ .f32 0x00000000#32) (ix2 p j)
      = ∑ q : Fin c, E (ix3 p ⟨o, ho⟩ q) * W (ix3 ⟨o, ho⟩ j q) := by
  rw [matmul_zero_nt_ix2 D hr hs hl0 hl1 hr0 hr1]
  refine Finset.sum_congr rfl fun q _ => ?_
  rw [shapeCast_a1c_ac_apply, shapeCast_1ab_ab_apply,
    slice3_axis1_apply o E h1 p (0 : Fin 1) q ⟨o, ho⟩ rfl, slice3_axis0_apply o W h2 (0 : Fin 1) j q ⟨o, ho⟩ rfl]

end Cert.LibBlockOps

end
-- ==== Proof.KernelStages.lean ====
/-
  The vector unit's operations in the two kernel bodies, each read at an index over variable arrays.

  Three products: a block of rows of h times W (contracting the columns of the left against the rows of the right),
  a block of query rows against all key rows (contracting the columns of both), and the weights against the value rows.
  Around them: the leaky rectifier written as a select on s ≥ 0 between s and slope · s; a row maximum and a row sum
  kept as a column and spread back over the row.
-/
import proofs.«141375_j41180146434555_2_alg».proof.Proof.Gen.KernelIdeal
import proofs.«141375_j41180146434555_2_alg».proof.Proof.LibDenseOps
import proofs.«141375_j41180146434555_2_alg».proof.Proof.LibBlockOps
import proofs.«141375_j41180146434555_2_alg».proof.Proof.LibSelfAttention
import proofs.«141375_j41180146434555_2_alg».proof.Proof.Consts

noncomputable section

namespace Cert.KernelIdeal.Stages

open Idealize.ShloMosaic Idealize.ShloMosaic.ValueIdx Cert.KernelIdeal Cert.KernelIdeal.Gen

/-! ## The three contractions' index maps -/

abbrev Dwh := dot_S1024x256_S256x128_S1024x128_1_0_0_1_n_n
abbrev Dqk := dot_S256x128_S8192x128_S256x8192_1_1_0_0_n_n
abbrev Dpv := dot_S256x8192_S8192x128_S256x128_1_0_0_1_n_n

theorem wh_l0 (i : S1024x128.Idx) (q : Dwh.contr.Idx) : (Dwh.lhsIdx i q 0).val = (i 0).val := by
  simp [DotDims.lhsIdx, Dwh, dot_S1024x256_S256x128_S1024x128_1_0_0_1_n_n]; rfl
theorem wh_l1 (i : S1024x128.Idx) (q : Dwh.contr.Idx) : (Dwh.lhsIdx i q 1).val = (q ⟨0, by decide⟩).val := by
  simp [DotDims.lhsIdx, Dwh, dot_S1024x256_S256x128_S1024x128_1_0_0_1_n_n]; rfl
theorem wh_r0 (i : S1024x128.Idx) (q : Dwh.contr.Idx) : (Dwh.rhsIdx i q 0).val = (q ⟨0, by decide⟩).val := by
  simp [DotDims.rhsIdx, Dwh, dot_S1024x256_S256x128_S1024x128_1_0_0_1_n_n]; rfl
theorem wh_r1 (i : S1024x128.Idx) (q : Dwh.contr.Idx) : (Dwh.rhsIdx i q 1).val = (i 1).val := by
  simp [DotDims.rhsIdx, Dwh, dot_S1024x256_S256x128_S1024x128_1_0_0_1_n_n]; rfl

theorem qk_l0 (i : S256x8192.Idx) (q : Dqk.contr.Idx) : (Dqk.lhsIdx i q 0).val = (i 0).val := by
  simp [DotDims.lhsIdx, Dqk, dot_S256x128_S8192x128_S256x8192_1_1_0_0_n_n]; rfl
theorem qk_l1 (i : S256x8192.Idx) (q : Dqk.contr.Idx) : (Dqk.lhsIdx i q 1).val = (q ⟨0, by decide⟩).val := by
  simp [DotDims.lhsIdx, Dqk, dot_S256x128_S8192x128_S256x8192_1_1_0_0_n_n]; rfl
theorem qk_r0 (i : S256x8192.Idx) (q : Dqk.contr.Idx) : (Dqk.rhsIdx i q 0).val = (i 1).val := by
  simp [DotDims.rhsIdx, Dqk, dot_S256x128_S8192x128_S256x8192_1_1_0_0_n_n]; rfl
theorem qk_r1 (i : S256x8192.Idx) (q : Dqk.contr.Idx) : (Dqk.rhsIdx i q 1).val = (q ⟨0, by decide⟩).val := by
  simp [DotDims.rhsIdx, Dqk, dot_S256x128_S8192x128_S256x8192_1_1_0_0_n_n]; rfl

theorem pv_l0 (i : S256x128.Idx) (q : Dpv.contr.Idx) : (Dpv.lhsIdx i q 0).val = (i 0).val := by
  simp [DotDims.lhsIdx, Dpv, dot_S256x8192_S8192x128_S256x128_1_0_0_1_n_n]; rfl
theorem pv_l1 (i : S256x128.Idx) (q : Dpv.contr.Idx) : (Dpv.lhsIdx i q 1).val = (q ⟨0, by decide⟩).val := by
  simp [DotDims.lhsIdx, Dpv, dot_S256x8192_S8192x128_S256x128_1_0_0_1_n_n]; rfl
theorem pv_r0 (i : S256x128.Idx) (q : Dpv.contr.Idx) : (Dpv.rhsIdx i q 0).val = (q ⟨0, by decide⟩).val := by
  simp [DotDims.rhsIdx, Dpv, dot_S256x8192_S8192x128_S256x128_1_0_0_1_n_n]; rfl
theorem pv_r1 (i : S256x128.Idx) (q : Dpv.contr.Idx) : (Dpv.rhsIdx i q 1).val = (i 1).val := by
  simp [DotDims.rhsIdx, Dpv, dot_S256x8192_S8192x128_S256x128_1_0_0_1_n_n]; rfl

/-! ## The products -/

/-- A block of 1024 rows of h times W: entry (p, j) is the sum over the 256 columns. -/
theorem whProd_apply {φ₁ φ₂ : FTy} (x : FVec Ideal S1024x256 φ₁) (w : FVec Ideal S256x128 φ₂) (p : Fin 1024) (j : Fin 128) :
    FloatOps.matmul Dwh none x w (constant S1024x128 .f32 0x00000000#32) (ix2 p j) = ∑ q : Fin 256, x (ix2 p q) * w (ix2 q j) :=
  Cert.LibDenseOps.matmul_zero_ix2 Dwh (by decide) (by decide) wh_l0 wh_l1 wh_r0 wh_r1 none x w p j

/-- 256 query rows against the 8192 key rows: entry (p, n) is the inner product of query row p and key row n. -/
theorem qkProd_apply {φ₁ φ₂ : FTy} (q : FVec Ideal S256x128 φ₁) (kv : FVec Ideal S8192x128 φ₂) (p : Fin 256) (n : Fin 8192) :
    FloatOps.matmul Dqk (some .fp32) q kv (constant S256x8192 .f32 0x00000000#32) (ix2 p n) = ∑ r : Fin 128, q (ix2 p r) * kv (ix2 n r) :=
  Cert.LibBlockOps.matmul_zero_nt_ix2 Dqk (by decide) (by decide) qk_l0 qk_l1 qk_r0 qk_r1 (some .fp32) q kv p n

/-- The 256 rows of weights against the 8192 value rows: entry (p, d) is the sum over the rows. -/
theorem pvProd_apply {φ₁ φ₂ : FTy} (w : FVec Ideal S256x8192 φ₁) (kv : FVec Ideal S8192x128 φ₂) (p : Fin 256) (d : Fin 128) :
    FloatOps.matmul Dpv none w kv (constant S256x128 .f32 0x00000000#32) (ix2 p d) = ∑ n : Fin 8192, w (ix2 p n) * kv (ix2 n d) :=
  Cert.LibDenseOps.matmul_zero_ix2 Dpv (by decide) (by decide) pv_l0 pv_l1 pv_r0 pv_r1 none w kv p d

/-! ## The rectifier, the row maximum and the row sum -/

/-- The select on s ≥ 0 between s and slope · s is the leaky rectifier of s. -/
theorem leaky_apply (s : FVec Ideal S256x8192 .f32) (i : S256x8192.Idx) :
    select (cmpf .oge s (broadcast S256x8192 (Scalar.ofBits (F := Ideal) .f32 0x00000000#32))) s
        (mulf (broadcast S256x8192 (Scalar.ofBits (F := Ideal) .f32 0x3E4CCCCD#32)) s) i
      = Cert.Attn.leaky Cert.Attn.slope (s i) := by
  show Scalar.select (Ideal.cmp .oge (s i) (Ideal.ofBits .f32 0x00000000#32)) (s i) (Ideal.ofBits .f32 0x3E4CCCCD#32 * s i) = _
  rw [Ideal.ofBits_zero_f32]
  rfl

/-- The row maximum from −∞, kept as a column and spread over the row, reads at (p, n) the fold of max over row p. -/
theorem rowMaxSpread_apply (a : FVec Ideal S256x8192 .f32) (hφ : FKind.Formats .f32)
    (hacc : (0xFF800000#32 : BitVec 32) = FKind.maximumf.neutral .f32 hφ) (p : Fin 256) (n : Fin 8192) :
    broadcastTo S256x8192 (shapeCast S256x1 (multiReduction .maximumf [1] S256 a 0xFF800000#32 reduces_S256x8192_S256 hφ hacc)
        shapeCasts_S256_S256x1) broadcasts_S256x1_S256x8192 (ix2 p n)
      = (Finset.univ : Finset (Fin 8192)).fold max ⊥ (fun c => a (ix2 p c)) := by
  rw [Cert.LibDenseOps.broadcastTo_a1_ab_apply, Cert.LibDenseOps.shapeCast_a_a1_apply,
    Cert.LibDenseOps.laneMax_apply, Cert.Attn.negInf]

/-- The row sum from 0, kept as a column and spread over 128 columns, reads at (p, d) the sum of row p. -/
theorem rowSumSpread_apply (a : FVec Ideal S256x8192 .f32) (hφ : FKind.Formats .f32)
    (hacc : (0x00000000#32 : BitVec 32) = FKind.add.neutral .f32 hφ) (p : Fin 256) (d : Fin 128) :
    broadcastTo S256x128 (shapeCast S256x1 (multiReduction .add [1] S256 a 0x00000000#32 reduces_S256x8192_S256 hφ hacc)
        shapeCasts_S256_S256x1) broadcasts_S256x1_S256x128 (ix2 p d)
      = ∑ c : Fin 8192, a (ix2 p c) := by
  rw [Cert.LibDenseOps.broadcastTo_a1_ab_apply, Cert.LibDenseOps.shapeCast_a_a1_apply, Cert.LibDenseOps.laneSum_apply]

end Cert.KernelIdeal.Stages

end
-- ==== Proof.KernelPay.lean ====
/-
  The two kernel bodies' stored values, read at an index.

  The projection body stores a block of rows of h · W. The attention body, given all key/value rows kv and a block q of
  256 query rows, stores at (p, d) the weighted sum of the value rows' column d divided by the total weight of row p,
  the weights being exp (activation − row maximum) of the leaky-rectified inner products of query row p with the
  key rows. When query row p is row i of kv this is entry (i, d) of "mix, then normalise" of kv with itself.
-/
import proofs.«141375_j41180146434555_2_alg».proof.Proof.Gen.KernelIdeal.Skeleton
import proofs.«141375_j41180146434555_2_alg».proof.Proof.KernelStages
import Idealize.ShloMosaic.Lib.Pipeline.Value

noncomputable section

namespace Cert.KernelIdeal.Pay

open Idealize.ShloMosaic Idealize.ShloMosaic.ValueIdx Cert.KernelIdeal Cert.KernelIdeal.Gen Cert.KernelIdeal.Stages

/-! ## The projection body -/

/-- Entry (p, j) of the projection body's stored block: row p of the block of h against column j of W. -/
theorem wh_pay (x0 : Vec Ideal S1024x256 .f32) (x1 : Vec Ideal S256x128 .f32) (p : Fin 1024) (j : Fin 128) :
    k0_pay1 x0 x1 (ix2 p j) = ∑ q : Fin 256, x0 (ix2 p q) * x1 (ix2 q j) := by
  unfold k0_pay1
  exact (whProd_apply (truncf .bf16 x0 bitsLt_bf16_f32) (truncf .bf16 x1 bitsLt_bf16_f32) p j).trans rfl

/-! ## The attention body, stage by stage -/

/-- The inner products of the query rows with the key rows. -/
def scoresOf (kv : FVec Ideal S8192x128 .f32) (q : FVec Ideal S256x128 .f32) : FVec Ideal S256x8192 .f32 :=
  matmul dot_S256x128_S8192x128_S256x8192_1_1_0_0_n_n (some .fp32)
    (shapeCast S256x128 q shapeCasts_S256x128_S256x128 : FVec Ideal S256x128 .f32)
    (shapeCast S8192x128 kv shapeCasts_S8192x128_S8192x128 : FVec Ideal S8192x128 .f32) (constant S256x8192 .f32 0x00000000#32)

/-- The leaky rectifier over an array of scores. -/
def actsOf (s : FVec Ideal S256x8192 .f32) : FVec Ideal S256x8192 .f32 :=
  select (cmpf .oge s (broadcast S256x8192 (Scalar.ofBits (F := Ideal) .f32 0x00000000#32))) s
    (mulf (broadcast S256x8192 (Scalar.ofBits (F := Ideal) .f32 0x3E4CCCCD#32)) s)

/-- exp (activation − its row's maximum). -/
def weightsOf (a : FVec Ideal S256x8192 .f32) : FVec Ideal S256x8192 .f32 :=
  exp (subf a (broadcastTo S256x8192 (shapeCast S256x1
    (multiReduction .maximumf [1] S256 a 0xFF800000#32 reduces_S256x8192_S256 (.inl rfl) rfl) shapeCasts_S256_S256x1)
    broadcasts_S256x1_S256x8192))

/-- The weighted sums of the value rows, divided by each row's total weight. -/
def mixOf (w : FVec Ideal S256x8192 .f32) (kv : FVec Ideal S8192x128 .f32) : FVec Ideal S256x128 .f32 :=
  divf (matmul dot_S256x8192_S8192x128_S256x128_1_0_0_1_n_n none (truncf .bf16 w bitsLt_bf16_f32 : FVec Ideal S256x8192 .bf16)
      (truncf .bf16 (shapeCast S8192x128 kv shapeCasts_S8192x128_S8192x128 : FVec Ideal S8192x128 .f32) bitsLt_bf16_f32 : FVec Ideal S8192x128 .bf16)
      (constant S256x128 .f32 0x00000000#32))
    (broadcastTo S256x128 (shapeCast S256x1
      (multiReduction .add [1] S256 w 0x00000000#32 reduces_S256x8192_S256 (.inl rfl) rfl) shapeCasts_S256_S256x1)
      broadcasts_S256x1_S256x128)

/-- The attention body's stored value is the four stages composed. -/
theorem k1_pay1_eq (kv : Vec Ideal S8192x128 .f32) (q : Vec Ideal S256x128 .f32) :
    k1_pay1 kv q = mixOf (weightsOf (actsOf (scoresOf kv q))) kv := by
  unfold k1_pay1 mixOf weightsOf actsOf scoresOf
  rfl

theorem scoresOf_apply (kv : FVec Ideal S8192x128 .f32) (q : FVec Ideal S256x128 .f32) (p : Fin 256) (n : Fin 8192) :
    scoresOf kv q (ix2 p n) = ∑ r : Fin 128, q (ix2 p r) * kv (ix2 n r) := by
  unfold scoresOf
  rw [shapeCast_self, shapeCast_self]
  exact qkProd_apply q kv p n

theorem actsOf_apply (s : FVec Ideal S256x8192 .f32) (i : S256x8192.Idx) :
    actsOf s i = Cert.Attn.leaky Cert.Attn.slope (s i) := leaky_apply s i

theorem weightsOf_apply (a : FVec Ideal S256x8192 .f32) (p : Fin 256) (n : Fin 8192) :
    weightsOf a (ix2 p n) = Ideal.exp (a (ix2 p n) - (Finset.univ : Finset (Fin 8192)).fold max ⊥ (fun c => a (ix2 p c))) := by
  unfold weightsOf
  exact congrArg (fun z => Ideal.exp (a (ix2 p n) - z)) (rowMaxSpread_apply a _ _ p n)

theorem mixOf_apply (w : FVec Ideal S256x8192 .f32) (kv : FVec Ideal S8192x128 .f32) (p : Fin 256) (d : Fin 128) :
    mixOf w kv (ix2 p d) = Ideal.div (∑ n : Fin 8192, w (ix2 p n) * kv (ix2 n d)) (∑ n : Fin 8192, w (ix2 p n)) := by
  unfold mixOf
  refine congrArg₂ Ideal.div ((pvProd_apply _ _ p d).trans ?_) (rowSumSpread_apply w _ _ p d)
  exact Finset.sum_congr rfl fun n _ =>
    congrArg (fun z => w (ix2 p n) * z) (congrFun (shapeCast_self kv shapeCasts_S8192x128_S8192x128) (ix2 n d))

/-! ## The attention body at an index -/

/-- Entry (p, d) of the attention body's stored block, when query row p is row i of the key/value rows. -/
theorem attn_pay (kv : Vec Ideal S8192x128 .f32) (q : Vec Ideal S256x128 .f32) (p : Fin 256) (i : Fin 8192)
    (hq : ∀ r : Fin 128, q (ix2 p r) = kv (ix2 i r)) (d : Fin 128) :
    k1_pay1 kv q (ix2 p d) = Cert.Attn.mixThenNormAt Cert.Attn.slope kv i d := by
  have hact : ∀ n : Fin 8192, actsOf (scoresOf kv q) (ix2 p n) = Cert.Attn.act Cert.Attn.slope kv i n := fun n => by
    rw [actsOf_apply, scoresOf_apply]
    unfold Cert.Attn.act Cert.Attn.score
    exact congrArg _ (Finset.sum_congr rfl fun r _ => by rw [hq r])
  have hw : ∀ n : Fin 8192, weightsOf (actsOf (scoresOf kv q)) (ix2 p n) = Cert.Attn.weight Cert.Attn.slope kv i n := fun n => by
    rw [weightsOf_apply]
    unfold Cert.Attn.weight Cert.Attn.rowMax
    simp only [hact]
  rw [k1_pay1_eq, mixOf_apply]
  unfold Cert.Attn.mixThenNormAt Cert.Attn.total
  simp only [hw]

end Cert.KernelIdeal.Pay

end
-- ==== Proof.WhValue.lean ====
/-
  The first region's output array: the product h · W.

  The grid has 8 points; point t reads rows 1024 t … 1024 t + 1023 of h and all of W, and writes back rows
  1024 t … 1024 t + 1023 of the output. Row p of the block written at t is row 1024 t + p of h against the columns of W, so
  each write-back is the block of one whole-array function, the product, and the 8 blocks tile the 8192 rows.
-/
import proofs.«141375_j41180146434555_2_alg».proof.Proof.Gen.KernelIdeal.Frame
import proofs.«141375_j41180146434555_2_alg».proof.Proof.KernelPay
import Idealize.ShloMosaic.Lib.Pipeline.Value

set_option maxRecDepth 16384

noncomputable section

namespace Cert.KernelIdeal.RegionValue

open Idealize.ShloMosaic Idealize.ShloMosaic.ValueIdx Idealize.ShloMosaic.TcCoe Idealize.SL.Sem
open Cert.KernelIdeal Cert.KernelIdeal.Gen Cert.LibMatChain

variable (V : (c : Dev nD) → (b : Ref sig .tc) → Buf (Elt Ideal) ((c : Thread nD τ).loc b))

theorem zeroOff : (![0, 0] : Fin 2 → Nat) = fun _ => 0 := funext fun a => by fin_cases a <;> rfl

/-- The printed index maps of the first region, decided over its 8 points: the block of h and the output block move
    with the point along the rows; W's block stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry y of the projection body's block is entry i of the product of the whole arrays, when row (y 0) of the block
    of h is row (i 0) of h and column (y 1) of the block of W is column (i 1) of W. -/
theorem wh_block (X0 : Vec Ideal S1024x256 .f32) (X1 : Vec Ideal S256x128 .f32)
    (A0 : S8192x256.Idx → EReal) (A2 : S256x128.Idx → EReal) (y : S1024x128.Idx) (i : S8192x128.Idx)
    (h0 : ∀ q : Fin 256, X0 (ix2 (y 0) q) = A0 (ix2 (i 0) q)) (h1 : ∀ q : Fin 256, X1 (ix2 q (y 1)) = A2 (ix2 q (i 1))) :
    k0_pay1 X0 X1 y = matProd A0 A2 i :=
  calc k0_pay1 X0 X1 y = k0_pay1 X0 X1 (ix2 (y 0) (y 1)) := congrArg _ (eq_ix2 y)
    _ = ∑ q : Fin 256, X0 (ix2 (y 0) q) * X1 (ix2 q (y 1)) := Cert.KernelIdeal.Pay.wh_pay X0 X1 (y 0) (y 1)
    _ = ∑ q : Fin 256, A0 (ix2 (i 0) q) * A2 (ix2 q (i 1)) := Finset.sum_congr rfl fun q _ => by rw [h0 q, h1 q]
    _ = matProd A0 A2 i := rfl

/-- What point t writes back is block t of the product of the two argument arrays as the region finds them. -/
theorem flushed0_eq (c : Dev nD) (t : Fin cfg0.N) :
    (dat0 V c).flushed 2 t = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero zeroOff]
  simp only [View.ld_unit_zero (S := S1024x256) zeroOff, View.ld_unit_zero (S := S256x128) zeroOff]
  obtain ⟨e00, e01, e10, e11, e20, e21⟩ := idx_facts0 t
  funext j
  refine wh_block _ _ (V c main_arg0) (V c main_arg2) j _ (fun q => ?_) (fun q => ?_)
  · show V c main_arg0 (((cfg0.win 0).blk t).view.emb (ix2 (j 0) q)) = V c main_arg0 _
    refine congrArg _ (funext fun a => Fin.ext ?_)
    match a with
    | ⟨0, _⟩ =>
      show win0_0.index t (0 : Fin 2) * 1024 + 1 * (j 0).val = win0_2.index t (0 : Fin 2) * 1024 + 1 * (j 0).val
      rw [e00, e20]
    | ⟨1, _⟩ =>
      show win0_0.index t (1 : Fin 2) * 256 + 1 * q.val = q.val
      rw [e01]; omega
  · show V c main_arg2 (((cfg0.win 1).blk t).view.emb (ix2 q (j 1))) = V c main_arg2 _
    refine congrArg _ (funext fun a => Fin.ext ?_)
    match a with
    | ⟨0, _⟩ =>
      show win0_1.index t (0 : Fin 2) * 256 + 1 * q.val = q.val
      rw [e10]; omega
    | ⟨1, _⟩ =>
      show win0_1.index t (1 : Fin 2) * 128 + 1 * (j 1).val = win0_2.index t (1 : Fin 2) * 128 + 1 * (j 1).val
      rw [e11, e21]

/-- An index of the output array is in point t's block iff each coordinate is in the block's range on its axis. -/
theorem mem_blk0 (t : Fin cfg0.N) (i : S8192x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v0).slice (win0_2.rect t)).set ↔ _
  rw [View.set_slice_whole, Rect.mem_set_unit]
  exact Iff.rfl

/-- Every index of the output array is in the block of the point its row falls in. -/
theorem cover0 (i : S8192x128.Idx) : ∃ t : Fin cfg0.N, (cfg0.win 2).flush t = true ∧ i ∈ ((cfg0.win 2).blk t).view.set := by
  have hi0 : (i 0).val < 8192 := (i 0).isLt
  have hi1 : (i 1).val < 128 := (i 1).isLt
  have hN : cfg0.N = 8 := N_0
  refine ⟨⟨(i 0).val / 1024, by rw [hN]; omega⟩, flush0_2 _, ?_⟩
  rw [mem_blk0]
  obtain ⟨-, -, -, -, e20, e21⟩ := idx_facts0 ⟨(i 0).val / 1024, by rw [hN]; omega⟩
  intro a
  match a with
  | ⟨0, _⟩ =>
    show win0_2.index _ (0 : Fin 2) * 1024 ≤ (i 0).val ∧ (i 0).val < win0_2.index _ (0 : Fin 2) * 1024 + 1024
    rw [e20]; show (i 0).val / 1024 * 1024 ≤ (i 0).val ∧ (i 0).val < (i 0).val / 1024 * 1024 + 1024; omega
  | ⟨1, _⟩ =>
    show win0_2.index _ (1 : Fin 2) * 128 ≤ (i 1).val ∧ (i 1).val < win0_2.index _ (1 : Fin 2) * 128 + 128
    rw [e21]; omega

/-- The first region's output array after its run: the product of the two arrays it was given. -/
theorem whArray (c : Dev nD) : (dat0 V c).arrAt 2 cfg0.N = matProd (V c main_arg0) (V c main_arg2) :=
  (dat0 V c).arrAt_eq_of_cover 2 (matProd (V c main_arg0) (V c main_arg2)) (fun t _ => flushed0_eq V c t) cover0

end Cert.KernelIdeal.RegionValue

end
-- ==== Proof.AttnValue.lean ====
/-
  The second region's output array: the attention of the first region's output with itself.

  The grid has 32 points; every point reads the whole [8192, 128] array (keys and values) and, out of it, the 256
  query rows 256 t … 256 t + 255, and writes back rows 256 t … 256 t + 255 of the output. Row p of the block written at t is
  row 256 t + p of "mix, then normalise" of the whole array, so each write-back is the block of that one function and the
  32 blocks tile the 8192 rows.
-/
import proofs.«141375_j41180146434555_2_alg».proof.Proof.Gen.KernelIdeal.Frame
import proofs.«141375_j41180146434555_2_alg».proof.Proof.KernelPay
import Idealize.ShloMosaic.Lib.Pipeline.Value

set_option maxRecDepth 16384

noncomputable section

namespace Cert.KernelIdeal.RegionValue

open Idealize.ShloMosaic Idealize.ShloMosaic.ValueIdx Idealize.ShloMosaic.TcCoe Idealize.SL.Sem Idealize.ShloMosaic.Tactic
open Cert.KernelIdeal Cert.KernelIdeal.Gen Cert.Attn

theorem zeroOff' : (![0, 0] : Fin 2 → Nat) = fun _ => 0 := funext fun a => by fin_cases a <;> rfl

/-- What the second body leaves in its output buffer is its stored value of the two loads: all the rows, and the
    256 rows starting at the point's offset. -/
theorem out1_piece {F : FTy → Type} [FloatOps F] (c : Dev nD) (i : grid1.Coords) (arg1 : Memref sig .tc .vmem S8192x128 .f32)
    (harg1 : arg1.IsWhole) (arg2 : Memref sig .tc .vmem S256x128 .f32) (harg2 : arg2.IsWhole) (x0 : Vec F S8192x128 .f32) :
    out1_A_1 c i arg1 harg1 arg2 harg2 x0
      = k1_pay1 x0 (View.ld x0 (Rect.unit (s := S8192x128) (k1_off1 i) S256x128.size (k1_off1_inb i))) := by
  unfold out1_A_1
  rw [View.read_writes_eq_canon _ _ _ (cover1_A_1 c i arg1 harg1 arg2 harg2 x0)]
  unfold kernelRun1_A
  dsimp only
  rw [View.canon_unit_zero zeroOff']
  simp only [View.readAt_eq_ld, harg1.read_unread, View.ld_unit_zero (S := S8192x128) zeroOff']

variable (V : (c : Dev nD) → (b : Ref sig .tc) → Buf (Elt Ideal) ((c : Thread nD τ).loc b))

/-- The printed index maps of the second region, decided over its 32 points: the key/value block is the whole array at
    every point, the output block moves with the point along the rows, and the point's one coordinate is its number. -/
theorem idx_facts1 : ∀ t : Fin cfg1.N, win1_0.index t (0 : Fin 2) = 0 ∧ win1_0.index t (1 : Fin 2) = 0
    ∧ win1_1.index t (0 : Fin 2) = t.val ∧ win1_1.index t (1 : Fin 2) = 0 ∧ ((grid1.coords t) 0).val = t.val :=
  (by decide +kernel : ∀ t : Fin grid1.N, _)

/-- Entry y of the attention body's block is entry i of the attention of the whole array with itself, when the keys and
    values are the whole array, query row (y 0) is its row (i 0), and y and i name the same column. -/
theorem attn_block (KV : Vec Ideal S8192x128 .f32) (Q : Vec Ideal S256x128 .f32) (A : S8192x128.Idx → EReal)
    (y : S256x128.Idx) (i : S8192x128.Idx) (hkv : KV = A) (hq : ∀ r : Fin 128, Q (ix2 (y 0) r) = A (ix2 (i 0) r))
    (h1 : (y 1).val = (i 1).val) :
    k1_pay1 KV Q y = mixThenNorm slope A i := by
  subst hkv
  have e1 : (y 1 : Fin 128) = i 1 := Fin.ext h1
  calc k1_pay1 KV Q y = k1_pay1 KV Q (ix2 (y 0) (y 1)) := congrArg _ (eq_ix2 y)
    _ = mixThenNormAt slope KV (i 0) (y 1) := Cert.KernelIdeal.Pay.attn_pay KV Q (y 0) (i 0) hq (y 1)
    _ = mixThenNormAt slope KV (i 0) (i 1) := by rw [e1]
    _ = mixThenNorm slope KV i := rfl

/-- The key/value window's block at any point is the whole array as the region finds it. -/
theorem kvBlock (c : Dev nD) (t : Fin cfg1.N) : iblk1 V c 0 t = V c main_v0 := by
  obtain ⟨e00, e01, -, -, -⟩ := idx_facts1 t
  funext y
  show V c main_v0 (((cfg1.win 0).blk t).view.emb y) = V c main_v0 y
  refine congrArg _ (funext fun a => Fin.ext ?_)
  match a with
  | ⟨0, _⟩ => show win1_0.index t (0 : Fin 2) * 8192 + 1 * (y 0).val = (y 0).val; rw [e00]; omega
  | ⟨1, _⟩ => show win1_0.index t (1 : Fin 2) * 128 + 1 * (y 1).val = (y 1).val; rw [e01]; omega

/-- What point t writes back is block t of the attention of the array the region was given. -/
theorem flushed1_eq (c : Dev nD) (t : Fin cfg1.N) :
    (dat1 V c).flushed 1 t = ((cfg1.win 1).blk t).view.read (Elt Ideal) (mixThenNorm slope (V c main_v0)) := by
  show (cfg1.win 1).cut (grid1.coords t) ((dat1 V c).after 1 t) = _
  rw [after1_1]
  unfold outsAt1
  rw [out1_piece, kvBlock V c t]
  obtain ⟨-, -, e10, e11, ec⟩ := idx_facts1 t
  have hoff : k1_off1 (grid1.coords t) = ![256 * ((grid1.coords t) 0).val, 0] := k1_off1_eq _
  funext j
  refine attn_block _ _ (V c main_v0) j _ rfl (fun r => ?_) ?_
  · show V c main_v0 ((Rect.unit (s := S8192x128) (k1_off1 (grid1.coords t)) S256x128.size (k1_off1_inb _)).emb (ix2 (j 0) r)) = V c main_v0 _
    refine congrArg _ (funext fun a => Fin.ext ?_)
    match a with
    | ⟨0, _⟩ =>
      show k1_off1 (grid1.coords t) 0 + 1 * (j 0).val = win1_1.index t (0 : Fin 2) * 256 + 1 * (j 0).val
      rw [hoff, e10]; show 256 * ((grid1.coords t) 0).val + 1 * (j 0).val = t.val * 256 + 1 * (j 0).val; rw [ec]; omega
    | ⟨1, _⟩ =>
      show k1_off1 (grid1.coords t) 1 + 1 * r.val = r.val
      rw [hoff]; show 0 + 1 * r.val = r.val; omega
  · show (j 1).val = win1_1.index t (1 : Fin 2) * 128 + 1 * (j 1).val
    rw [e11]; omega

/-- An index of the output array is in point t's block iff each coordinate is in the block's range on its axis. -/
theorem mem_blk1 (t : Fin cfg1.N) (i : S8192x128.Idx) :
    i ∈ ((cfg1.win 1).blk t).view.set ↔ ∀ a : Fin 2, win1_1.index t a * S256x128.size a ≤ (i a).val
      ∧ (i a).val < win1_1.index t a * S256x128.size a + S256x128.size a := by
  show i ∈ ((View.whole main_v1).slice (win1_1.rect t)).set ↔ _
  rw [View.set_slice_whole, Rect.mem_set_unit]
  exact Iff.rfl

/-- Every index of the output array is in the block of the point its row falls in. -/
theorem cover1 (i : S8192x128.Idx) : ∃ t : Fin cfg1.N, (cfg1.win 1).flush t = true ∧ i ∈ ((cfg1.win 1).blk t).view.set := by
  have hi0 : (i 0).val < 8192 := (i 0).isLt
  have hi1 : (i 1).val < 128 := (i 1).isLt
  have hN : cfg1.N = 32 := N_1
  refine ⟨⟨(i 0).val / 256, by rw [hN]; omega⟩, flush1_1 _, ?_⟩
  rw [mem_blk1]
  obtain ⟨-, -, e10, e11, -⟩ := idx_facts1 ⟨(i 0).val / 256, by rw [hN]; omega⟩
  intro a
  match a with
  | ⟨0, _⟩ =>
    show win1_1.index _ (0 : Fin 2) * 256 ≤ (i 0).val ∧ (i 0).val < win1_1.index _ (0 : Fin 2) * 256 + 256
    rw [e10]; show (i 0).val / 256 * 256 ≤ (i 0).val ∧ (i 0).val < (i 0).val / 256 * 256 + 256; omega
  | ⟨1, _⟩ =>
    show win1_1.index _ (1 : Fin 2) * 128 ≤ (i 1).val ∧ (i 1).val < win1_1.index _ (1 : Fin 2) * 128 + 128
    rw [e11]; omega

/-- The second region's output array after its run: the attention of the array it was given with itself. -/
theorem attnArray (c : Dev nD) : (dat1 V c).arrAt 1 cfg1.N = mixThenNorm slope (V c main_v0) :=
  (dat1 V c).arrAt_eq_of_cover 1 (mixThenNorm slope (V c main_v0)) (fun t _ => flushed1_eq V c t) cover1

end Cert.KernelIdeal.RegionValue

end
-- ==== Proof.KernelValue.lean ====
/-
  The idealized kernel's result as one function of its arguments.

  The second region's output is the attention of the array it was given, and that array is the first region's output, the
  product h · W of the launch arguments: neither region writes an argument and the second reads what the first left.
-/
import proofs.«141375_j41180146434555_2_alg».proof.Proof.KernelRun
import proofs.«141375_j41180146434555_2_alg».proof.Proof.WhValue
import proofs.«141375_j41180146434555_2_alg».proof.Proof.AttnValue

set_option maxRecDepth 16384

noncomputable section

namespace Cert.KernelIdeal.RunValue

open Idealize.ShloMosaic Idealize.ShloMosaic.TcCoe Idealize.SL.Sem
open Cert.KernelIdeal Cert.KernelIdeal.Gen Cert.KernelIdeal.RegionValue Cert.Attn Cert.LibMatChain

variable (m : (ℓ : Loc nD τ sig) → Buf (Elt Ideal) ℓ) (ρ : Dev nD → PrngReg)

/-- At the first region's exit its output array holds h · W of the launch arguments. -/
theorem whAtExit (c : Dev nD) :
    V1 m ρ c main_v0 = matProd (m ((c.tc : Thread nD τ).loc main_arg0)) (m ((c.tc : Thread nD τ).loc main_arg2)) :=
  calc V1 m ρ c main_v0
    _ = (dat0 (V0 m ρ) c).arrAt 2 cfg0.N := W1_arr m ρ c 2
    _ = matProd (V0 m ρ c main_arg0) (V0 m ρ c main_arg2) := whArray (V0 m ρ) c
    _ = matProd (m ((c.tc : Thread nD τ).loc main_arg0)) (m ((c.tc : Thread nD τ).loc main_arg2)) := rfl

/-- At the second region's exit the result buffer holds the attention of h · W with itself. -/
theorem resultAtExit (c : Dev nD) :
    W2 m ρ c (Proc.devRef .tc main_v1)
      = mixThenNorm slope (matProd (m ((c.tc : Thread nD τ).loc main_arg0)) (m ((c.tc : Thread nD τ).loc main_arg2))) :=
  calc W2 m ρ c (Proc.devRef .tc main_v1)
    _ = (dat1 (V1 m ρ) c).arrAt 1 cfg1.N := W2_arr m ρ c 1
    _ = mixThenNorm slope (V1 m ρ c main_v0) := attnArray (V1 m ρ) c
    _ = _ := congrArg (mixThenNorm slope) (whAtExit m ρ c)

/-- Every weakly fair execution of the idealized kernel terminates with the result at the attention of h · W with itself
    (weights mixed first, normalised after) and the arguments as launched. -/
theorem run : θ_run (defs (F := Ideal)) (onTc (τ := τ) (main (F := Ideal))) ⟨m, fun _ => 0, ρ⟩ (fun r => ∀ c : Dev nD,
      r.2.mem ((c.tc : Thread nD τ).loc main_v1)
        = mixThenNorm slope (matProd (m ((c.tc : Thread nD τ).loc main_arg0)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (resultAtExit m ρ c), (h c).2⟩) (run_named m ρ)

end Cert.KernelIdeal.RunValue

end
-- ==== Proof.RefOps.lean ====
/-
  The reference program's main function as the list of its twenty-six host operations: the call of the leaky
  rectifier and, inside it, of the selection, written out at the call's own buffers.
-/
import proofs.«141375_j41180146434555_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The main function's operations in order, the two calls written out: the rectifier is seven (the zero, its
    broadcast, the comparison, the slope's conversion, its broadcast, the product, the selection into the call's
    result). -/
abbrev ops : List (HloOp τ sig (Elt F)) :=
  [ binary main_arg0 main_arg2 main_v0 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    unary main_v0 main_v1 ((transpose S128x8192 [1, 0] · transposes_S8192x128_S128x8192_1_0) : (⟨S8192x128, .f32⟩ : BufTy).Contents (Elt F) → (⟨S128x8192, .f32⟩ : BufTy).Contents (Elt F)),
    binary main_v0 main_v1 main_v2 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v2) main_call0.v0 main_call0.v1 (cmpf .oge),
    TRef.unary (.of main_cst) main_call0.v2 id,
    TRef.unary main_call0.v2 main_call0.v3 (broadcastInDim S8192x8192 ![] bcast_S_S8192x8192),
    TRef.binary main_call0.v3 (.of main_v2) main_call0.v4 mulf,
    TRef.ternary main_call0.v1 (.of main_v2) main_call0.v4 main_call0.call0.v0 select,
    nullary main_cst_0 (constant S_ .f32 0xFF800000#32),
    binary main_v3 main_cst_0 main_v4 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_1 (constant S_ .f32 0xFF800000#32),
    unary main_cst_1 main_v5 (broadcastInDim S8192 ![] bcast_S_S8192 : (⟨S_, .f32⟩ : BufTy).Contents (Elt F) → (⟨S8192, .f32⟩ : BufTy).Contents (Elt F)),
    binary main_v5 main_v4 main_v6 (maximumf : (⟨S8192, .f32⟩ : BufTy).Contents (Elt F) → (⟨S8192, .f32⟩ : BufTy).Contents (Elt F) → (⟨S8192, .f32⟩ : BufTy).Contents (Elt F)),
    unary main_v6 main_v7 (broadcastInDim S8192x1 ![0] bcast_S8192_S8192x1_0 : (⟨S8192, .f32⟩ : BufTy).Contents (Elt F) → (⟨S8192x1, .f32⟩ : BufTy).Contents (Elt F)),
    unary main_v7 main_v8 (broadcastInDim S8192x8192 ![0, 1] bcast_S8192x1_S8192x8192_0_1 : (⟨S8192x1, .f32⟩ : BufTy).Contents (Elt F) → (⟨S8192x8192, .f32⟩ : BufTy).Contents (Elt F)),
    binary main_v3 main_v8 main_v9 (subf : (⟨S8192x8192, .f32⟩ : BufTy).Contents (Elt F) → (⟨S8192x8192, .f32⟩ : BufTy).Contents (Elt F) → (⟨S8192x8192, .f32⟩ : BufTy).Contents (Elt F)),
    unary main_v9 main_v10 (Host.exp : (⟨S8192x8192, .f32⟩ : BufTy).Contents (Elt F) → (⟨S8192x8192, .f32⟩ : BufTy).Contents (Elt F)),
    nullary main_cst_2 (constant S_ .f32 0x00000000#32),
    binary main_v10 main_cst_2 main_v11 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v11 main_v12 (broadcastInDim S8192x1 ![0] bcast_S8192_S8192x1_0 : (⟨S8192, .f32⟩ : BufTy).Contents (Elt F) → (⟨S8192x1, .f32⟩ : BufTy).Contents (Elt F)),
    unary main_v12 main_v13 (broadcastInDim S8192x8192 ![0, 1] bcast_S8192x1_S8192x8192_0_1 : (⟨S8192x1, .f32⟩ : BufTy).Contents (Elt F) → (⟨S8192x8192, .f32⟩ : BufTy).Contents (Elt F)),
    binary main_v10 main_v13 main_v14 (Host.divf : (⟨S8192x8192, .f32⟩ : BufTy).Contents (Elt F) → (⟨S8192x8192, .f32⟩ : BufTy).Contents (Elt F) → (⟨S8192x8192, .f32⟩ : BufTy).Contents (Elt F)),
    binary main_v14 main_v0 main_v15 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)) ]

set_option maxRecDepth 1024 in
/-- The main function is that straight line: the two functions' definitions unfolded at their calls, both sides are
    one chain of steps once sequencing is reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., binary_bufs_sub ..⟩

end Cert.ReferenceIdeal.RefValue

end
-- ==== Proof.RefRun.lean ====
/-
  The reference program's run: what its result buffer holds afterwards, as one term of the two arguments it reads,
  and that every weakly fair execution ends there with the arguments unchanged.
-/
import proofs.«141375_j41180146434555_2_alg».proof.Proof.RefOps
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The result as one term of the two arguments it reads

The stages are named so that each can be read at an index on its own: the projected rows, their scores against each
other, the rectified scores, each row's maximum, the exponentials of the differences, their normalisation, and the
final product. -/

/-- The projected rows: the first argument times the weight. -/
def proj (h : FVec Ideal S8192x256 .f32) (w : FVec Ideal S256x128 .f32) : FVec Ideal S8192x128 .f32 :=
  Host.dotGeneral (F := Ideal) dot_S8192x256_S256x128_S8192x128_1_0_0_1_n_n none h w

/-- The scores: the rows times their own transpose. -/
def gram (x : FVec Ideal S8192x128 .f32) : FVec Ideal S8192x8192 .f32 :=
  Host.dotGeneral (F := Ideal) dot_S8192x128_S128x8192_S8192x8192_1_0_0_1_n_n none x
    (transpose S128x8192 [1, 0] x transposes_S8192x128_S128x8192_1_0)

/-- The leaky rectifier of every score: the score where it is at least the broadcast zero, the broadcast slope times
    the score elsewhere. -/
def rect (s : FVec Ideal S8192x8192 .f32) : FVec Ideal S8192x8192 .f32 :=
  select (cmpf .oge s (broadcastInDim S8192x8192 ![] bcast_S_S8192x8192 (constant (F := Ideal) S_ .f32 0x00000000#32))) s
    (mulf (broadcastInDim S8192x8192 ![] bcast_S_S8192x8192 (id (constant (F := Ideal) S_ .f32 0x3E4CCCCD#32))) s)

/-- Each row's maximum, the reduction from −∞ joined once more with the broadcast −∞. -/
def top (a : FVec Ideal S8192x8192 .f32) : FVec Ideal S8192 .f32 :=
  maximumf (broadcastInDim S8192 ![] bcast_S_S8192 (constant (F := Ideal) S_ .f32 0xFF800000#32))
    (Host.reduce FloatOps.maximumf a (constant (F := Ideal) S_ .f32 0xFF800000#32) reducesTo_S8192x8192_S8192_d1 h_S_)

/-- The exponential of every entry less its row's maximum (the maxima laid along the rows through a column). -/
def wts (a : FVec Ideal S8192x8192 .f32) : FVec Ideal S8192x8192 .f32 :=
  Host.exp (F := Ideal) (subf a (broadcastInDim S8192x8192 ![0, 1] bcast_S8192x1_S8192x8192_0_1
    (broadcastInDim S8192x1 ![0] bcast_S8192_S8192x1_0 (top a))))

/-- Every entry divided by its row's sum (the sums laid along the rows through a column). -/
def nrm (e : FVec Ideal S8192x8192 .f32) : FVec Ideal S8192x8192 .f32 :=
  Host.divf (F := Ideal) e (broadcastInDim S8192x8192 ![0, 1] bcast_S8192x1_S8192x8192_0_1
    (broadcastInDim S8192x1 ![0] bcast_S8192_S8192x1_0
      (Host.reduceAdd (F := Ideal) e (constant (F := Ideal) S_ .f32 0x00000000#32) reducesTo_S8192x8192_S8192_d1 h_S_)))

/-- What the result buffer holds: the normalised weights of the projected rows, times the projected rows. -/
def refTerm (h : FVec Ideal S8192x256 .f32) (w : FVec Ideal S256x128 .f32) : FVec Ideal S8192x128 .f32 :=
  Host.dotGeneral (F := Ideal) dot_S8192x8192_S8192x128_S8192x128_1_0_0_1_n_n none
    (nrm (wts (rect (gram (proj h w))))) (proj h w)

attribute [local irreducible] Host.reduce Host.reduceAdd Host.exp Host.divf in
set_option maxHeartbeats 400000 in
/-- The fold of the operations read at the result buffer is that term: each operation's result is its function's value
    at its own buffer and what was there at any other, and the typed references' casts are the identity at these literal
    references. The reductions are kept folded meanwhile: the equation never looks inside them. -/
theorem out_eq (V : Valuation τ sig (Elt Ideal)) :
    after (ops (F := Ideal)) V (main_v15 : DevRef τ sig) = refTerm (V (main_arg0 : DevRef τ sig)) (V (main_arg2 : DevRef τ sig)) := by
  after_results_simp
  rfl

/-- No operation writes an argument's buffer. -/
theorem arg0_eq (V : Valuation τ sig (Elt Ideal)) :
    after (ops (F := Ideal)) V (main_arg0 : DevRef τ sig) = V (main_arg0 : DevRef τ sig) := by
  after_results_simp

theorem arg1_eq (V : Valuation τ sig (Elt Ideal)) :
    after (ops (F := Ideal)) V (main_arg1 : DevRef τ sig) = V (main_arg1 : DevRef τ sig) := by
  after_results_simp

theorem arg2_eq (V : Valuation τ sig (Elt Ideal)) :
    after (ops (F := Ideal)) V (main_arg2 : DevRef τ sig) = V (main_arg2 : DevRef τ sig) := by
  after_results_simp

/-- From any memory with zero counters every weakly fair execution of the main function terminates, with the result
    buffer at that term of the two arguments it reads and the three arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15) = refTerm (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v15).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefValue

end
-- ==== Proof.LibBroadcastRead.lean ====
/-
  Two broadcasts read at an index.

  A single number broadcast into an array of any shape is that number at every index. A one-column array [a, 1] laid
  along every row of an [a, b] array by a broadcast along both axes is, at (p, c), the column's entry p.

  General lemmas: nothing here mentions a program; the shapes and extents are variables.
-/
import Idealize.ShloMosaic.Lib.Pipeline.Value
import Idealize.ShloMosaic.Lib.ValueIdx
import Idealize.ShloMosaic.Lib.ValueLayout

namespace Cert.LibBroadcastRead

open Idealize.ShloMosaic Idealize.ShloMosaic.ValueIdx

variable {α : Type}

/-- A rank-0 array broadcast into any shape reads, at every index, its one entry. -/
theorem broadcastInDim_scalar_apply {t : Shape} (hd : (⟨0, ![]⟩ : Shape).BroadcastsInDim t ![])
    (x : (⟨0, ![]⟩ : Shape).Idx → α) (j : t.Idx) : broadcastInDim t ![] hd x j = x ix0 :=
  broadcastInDim_apply ![] hd x j ix0 fun ax => ax.elim0

/-- A column [a, 1] laid along every row of an [a, b] array by a broadcast along both axes reads, at (p, c), the
    column's entry p. -/
theorem broadcastInDim_a1_ab_apply {a b : ℕ} (hd : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hd v (ix2 p c) = v (ix2 p (0 : Fin 1)) := by
  refine broadcastInDim_apply ![0, 1] hd v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibBroadcastRead
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibColumnRow.lean ====
/-
  One-column and one-row arrays, read at an index.

  A per-row quantity (one number per row of a matrix: a node's degree factor, a row's maximum, a row's sum) is
  held as a one-column array [a, 1] and used by laying it along every row of an [a, b] matrix; a per-column
  quantity (a bias) is held as a one-row array [1, n]. A vector of length a becomes such a column either by a
  reshape (the row-major position is kept, and position p of the column is entry p) or by a broadcast along
  axis 0; a vector of length n becomes a row by a reshape or by a broadcast along axis 1. The lemmas below read
  each of these at an index (p, c), and say that the reshape and the broadcast of a vector into a column, and into
  a row, are the same array.
-/
import Idealize.ShloMosaic.Lib.Pipeline.Value
import Idealize.ShloMosaic.Lib.ValueIdx
import Idealize.ShloMosaic.Lib.ValueLayout

namespace Cert.LibColumnRow

open Idealize.ShloMosaic Idealize.ShloMosaic.ValueIdx

variable {α : Type}

/-- A column [a, 1] laid along every row of an [a, b] array reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a reshaped into a column [a, 1] reads, at (p, u), the vector's entry p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector of length a broadcast along axis 0 into a column [a, 1] reads, at (p, u), the vector's entry p. -/
theorem broadcastInDim_a_a1_apply {a : ℕ} (hd : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] hd x (ix2 p u) = x (ix1 p) := by
  refine broadcastInDim_apply ![0] hd x (ix2 p u) (ix1 p) fun ax => ?_
  match ax with
  | ⟨0, _⟩ =>
    show p.val = if a = 1 then 0 else p.val
    split
    · have := p.isLt; omega
    · rfl

/-- The reshape of a vector into a column is its broadcast along axis 0 into that column. -/
theorem shapeCast_col_eq_broadcastInDim {a : ℕ} (x : (⟨1, ![a]⟩ : Shape).Idx → α)
    (h : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h = broadcastInDim ⟨2, ![a, 1]⟩ ![0] hd x := by
  funext i
  obtain ⟨p, u, rfl⟩ : ∃ (p : Fin a) (u : Fin 1), i = ix2 p u := ⟨i 0, i 1, eq_ix2 i⟩
  rw [shapeCast_a_a1_apply, broadcastInDim_a_a1_apply]

/-- A vector of length n broadcast along axis 1 into a row [1, n] reads, at (u, c), the vector's entry c. -/
theorem broadcastInDim_n_1n_apply {n : ℕ} (hd : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] hd x (ix2 u c) = x (ix1 c) := by
  refine broadcastInDim_apply ![1] hd x (ix2 u c) (ix1 c) fun ax => ?_
  match ax with
  | ⟨0, _⟩ =>
    show c.val = if n = 1 then 0 else c.val
    split
    · have := c.isLt; omega
    · rfl

/-- The reshape of a vector into a row is its broadcast along axis 1 into that row. -/
theorem shapeCast_row_eq_broadcastInDim {n : ℕ} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, c, rfl⟩ : ∃ (u : Fin 1) (c : Fin n), i = ix2 u c := ⟨i 0, i 1, eq_ix2 i⟩
  rw [shapeCast_a_1a_apply, broadcastInDim_n_1n_apply]

end Cert.LibColumnRow
-- ==== Proof.RefRead.lean ====
/-
  The reference's result, read index by index, is the attention of the projected rows with itself: normalise, then mix.

  Each stage is read at an index over an arbitrary operand: the projection and the scores are sums of products, the
  rectifier is the leaky one with the slope's value, the row maximum is the fold of max from −∞ (the reduction starts at
  −∞, and joining it once more with −∞ changes nothing), the weight is the exponential of the difference, the
  normalisation divides by the row's sum (started at zero). The final product then sums, over the rows n, the
  normalised weight of n for i times entry (n, d) of the projected rows — the arrangement of the specification itself.
-/
import proofs.«141375_j41180146434555_2_alg».proof.Proof.RefRun
import proofs.«141375_j41180146434555_2_alg».proof.Proof.LibBroadcastRead
import proofs.«141375_j41180146434555_2_alg».proof.Proof.LibSelfAttention
import proofs.«141375_j41180146434555_2_alg».proof.Proof.Consts
import proofs.«141375_j41180146434555_2_alg».proof.Proof.LibAffine
import proofs.«141375_j41180146434555_2_alg».proof.Proof.LibDenseOps
import proofs.«141375_j41180146434555_2_alg».proof.Proof.LibBlockOps
import proofs.«141375_j41180146434555_2_alg».proof.Proof.LibColumnRow

noncomputable section

namespace Cert.ReferenceIdeal.RefValue

open Cert.ReferenceIdeal Cert.ReferenceIdeal.Gen Idealize.ShloMosaic Idealize.ShloMosaic.ValueIdx Cert.Attn Cert.LibMatChain Cert.LibBroadcastRead

/-- The projected rows are the product of the two arguments. -/
theorem proj_eq (h : FVec Ideal S8192x256 .f32) (w : FVec Ideal S256x128 .f32) : proj h w = matProd h w := by
  funext j
  obtain ⟨p, c, rfl⟩ : ∃ (p : Fin 8192) (c : Fin 128), j = ix2 p c := ⟨j 0, j 1, eq_ix2 j⟩
  rw [matProd_ix2]
  exact Cert.LibAffine.hostDot_ix2 dot_S8192x256_S256x128_S8192x128_1_0_0_1_n_n rfl rfl (fun _ _ => rfl) (fun _ _ => rfl)
    (fun _ _ => rfl) (fun _ _ => rfl) none h w p c

/-- The score of rows i and n: the inner product of the two rows. -/
theorem gram_ix2 (x : FVec Ideal S8192x128 .f32) (i n : Fin 8192) : gram x (ix2 i n) = score x i n := by
  unfold gram score
  rw [Cert.LibAffine.hostDot_ix2 dot_S8192x128_S128x8192_S8192x8192_1_0_0_1_n_n rfl rfl (fun _ _ => rfl) (fun _ _ => rfl)
    (fun _ _ => rfl) (fun _ _ => rfl)]
  exact Finset.sum_congr rfl fun q _ => by rw [transpose_ix2_apply]

/-- The rectifier of an entry: the leaky one with the slope's value (the broadcast zero is 0, the broadcast slope the
    slope). -/
theorem rect_ix2 (s : FVec Ideal S8192x8192 .f32) (i n : Fin 8192) : rect s (ix2 i n) = leaky slope (s (ix2 i n)) := by
  unfold rect leaky
  rw [select_apply, cmpf_apply, mulf_apply, broadcastInDim_scalar_apply, broadcastInDim_scalar_apply, constant_apply,
    Ideal.ofBits_zero_f32]
  rfl

/-- A row's maximum: the fold of max over the row from −∞. -/
theorem top_ix1 (a : FVec Ideal S8192x8192 .f32) (i : Fin 8192) :
    top a (ix1 i) = (Finset.univ : Finset (Fin 8192)).fold max ⊥ (fun n => a (ix2 i n)) := by
  have hred : S8192x8192.Reduces [1] S8192 :=
    ⟨reducesTo_S8192x8192_S8192_d1.1, Nat.one_pos, reducesTo_S8192x8192_S8192_d1.2⟩
  unfold top
  rw [maximumf_apply, broadcastInDim_scalar_apply, constant_apply, negInf,
    Cert.LibDenseOps.hostRowMax_apply a _ reducesTo_S8192x8192_S8192_d1 hred h_S_ i, constant_apply, negInf, max_bot_left]

/-- A weight: the exponential of the entry less its row's maximum. -/
theorem wts_ix2 (a : FVec Ideal S8192x8192 .f32) (i n : Fin 8192) :
    wts a (ix2 i n) = Ideal.exp (a (ix2 i n) - top a (ix1 i)) := by
  unfold wts
  show Ideal.exp (subf a _ (ix2 i n)) = _
  rw [subf_apply, broadcastInDim_a1_ab_apply, Cert.LibColumnRow.broadcastInDim_a_a1_apply]

/-- A normalised entry: the entry divided by its row's sum. -/
theorem nrm_ix2 (e : FVec Ideal S8192x8192 .f32) (i n : Fin 8192) :
    nrm e (ix2 i n) = Ideal.div (e (ix2 i n)) (∑ c : Fin 8192, e (ix2 i c)) := by
  unfold nrm
  show Ideal.div (e (ix2 i n)) _ = _
  rw [broadcastInDim_a1_ab_apply, Cert.LibColumnRow.broadcastInDim_a_a1_apply, Cert.LibBlockOps.hostLastSum_apply,
    constant_apply, Ideal.ofBits_zero_f32, zero_add]

/-- The reference's result is the attention of the projected rows with itself, normalised and then mixed. -/
theorem refTerm_eq (h : FVec Ideal S8192x256 .f32) (w : FVec Ideal S256x128 .f32) :
    refTerm h w = normThenMix slope (matProd h w) := by
  unfold refTerm
  rw [proj_eq]
  generalize matProd h w = x
  have hact : ∀ i n : Fin 8192, rect (gram x) (ix2 i n) = act slope x i n := fun i n => by
    rw [rect_ix2, gram_ix2]; rfl
  have htop : ∀ i : Fin 8192, top (rect (gram x)) (ix1 i) = rowMax slope x i := fun i => by
    rw [top_ix1]
    exact congrArg (fun f => Finset.fold max ⊥ f (Finset.univ : Finset (Fin 8192))) (funext fun n => hact i n)
  have hw : ∀ i n : Fin 8192, wts (rect (gram x)) (ix2 i n) = weight slope x i n := fun i n => by
    rw [wts_ix2, hact, htop]; rfl
  funext j
  obtain ⟨i, d, rfl⟩ : ∃ (i : Fin 8192) (d : Fin 128), j = ix2 i d := ⟨j 0, j 1, eq_ix2 j⟩
  rw [normThenMix_ix2, Cert.LibAffine.hostDot_ix2 dot_S8192x8192_S8192x128_S8192x128_1_0_0_1_n_n rfl rfl (fun _ _ => rfl)
    (fun _ _ => rfl) (fun _ _ => rfl) (fun _ _ => rfl)]
  unfold normThenMixAt total
  refine Finset.sum_congr rfl fun n _ => ?_
  rw [nrm_ix2, hw]
  exact congrArg (fun t => Ideal.div (weight slope x i n) t * x (ix2 n d)) (Finset.sum_congr rfl fun c _ => hw i c)

end Cert.ReferenceIdeal.RefValue

end
-- ==== Proof.lean ====
/-
  Dense self-attention of the projected node features, kernel against reference, on the extended reals.

  Both programs first form Wh = h · W. The reference then takes the scores Wh · Whᵀ, applies the leaky rectifier
  (slope: the single-precision word of 0.2), turns each row into weights exp (activation − the row's maximum), divides
  every weight by its row's total, and multiplies the normalised weights by Wh. The kernel computes Wh in a first
  region, block of rows by block of rows; in a second region, for each block of 256 query rows, it forms the same
  scores, activations and weights against all 8192 rows, multiplies the UNNORMALISED weights by Wh and divides the
  products' rows by the totals afterwards. At the ideal values a change of float format is the identity and every
  product is the exact sum of products, so the two results differ only in where the division stands:

      Σ_n (w n / l) · v n      against      (Σ_n w n · v n) / l.

  On the extended reals a quotient does not pass through a sum in general. Under the precondition every entry of h and W
  is a real number; then every entry of Wh, every score, activation, row maximum and weight is real, every weight is
  positive, the total l is a positive real, and the two sides are the coercion of one real expression.

  The adjacency argument is read by neither program.
-/
import proofs.«141375_j41180146434555_2_alg».proof.Defs
import proofs.«141375_j41180146434555_2_alg».proof.Proof.Gen.Kernel
import proofs.«141375_j41180146434555_2_alg».proof.Proof.Gen.Kernel.Frame
import proofs.«141375_j41180146434555_2_alg».proof.Proof.Gen.KernelIdeal
import proofs.«141375_j41180146434555_2_alg».proof.Proof.Gen.KernelIdeal.Frame
import proofs.«141375_j41180146434555_2_alg».proof.Proof.Gen.ReferenceIdeal
import proofs.«141375_j41180146434555_2_alg».proof.Proof.Gen.Pre_finite_inputs
import proofs.«141375_j41180146434555_2_alg».proof.Proof.LibSelfAttention
import proofs.«141375_j41180146434555_2_alg».proof.Proof.Consts
import proofs.«141375_j41180146434555_2_alg».proof.Proof.Finite
import proofs.«141375_j41180146434555_2_alg».proof.Proof.KernelValue
import proofs.«141375_j41180146434555_2_alg».proof.Proof.RefRun
import proofs.«141375_j41180146434555_2_alg».proof.Proof.RefRead

noncomputable section

namespace Cert.Proof

open Idealize.ShloMosaic Idealize.ShloMosaic.TcCoe Idealize.SL.Sem Cert.Attn Cert.LibMatChain

/-- A product of two arrays of reals holds reals only. -/
theorem isReal_matProd {a k n : ℕ} (x : (⟨2, ![a, k]⟩ : Shape).Idx → EReal) (w : (⟨2, ![k, n]⟩ : Shape).Idx → EReal)
    (hx : ∀ j, IsReal (x j)) (hw : ∀ j, IsReal (w j)) (j : (⟨2, ![a, n]⟩ : Shape).Idx) : IsReal (matProd x w j) :=
  isReal_sum _ _ fun q => isReal_mul (hx _) (hw _)

/-- For real h and W the attention of h · W with itself does not depend on where the division by the totals stands. -/
theorem arrangements_agree {a k n : ℕ} (h : (⟨2, ![a, k]⟩ : Shape).Idx → EReal) (w : (⟨2, ![k, n]⟩ : Shape).Idx → EReal)
    (hh : ∀ j, IsReal (h j)) (hw : ∀ j, IsReal (w j)) :
    normThenMix slope (matProd h w) = mixThenNorm slope (matProd h w) :=
  normThenMix_eq_mixThenNorm slope (matProd h w) slope_real (isReal_matProd h w hh hw)

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.RefValue.run m ρ)

/-- The kernel's result array ends at the attention of h · W with the division last, the reference's with the division
    first; the arguments agree and are real under the precondition, where the two arrangements are one function. -/
theorem algebraic : Cert.algebraic_KernelIdeal_ReferenceIdeal := by
  intro m ρ m' ρ' hpre hagree
  refine ⟨_, Cert.KernelIdeal.RunValue.run m ρ, ?_⟩
  refine (θ_run Cert.ReferenceIdeal.defs _ _).mono (fun _ h c => ⟨(h c).1.trans ?_, (h c).2⟩)
    (Cert.ReferenceIdeal.RefValue.run m' ρ')
  obtain ⟨hr0, hr2⟩ := real_of_pre _ _ _ (hpre c)
  rw [(hagree c).1, (hagree c).2.2, Cert.ReferenceIdeal.RefValue.refTerm_eq]
  exact arrangements_agree _ _ hr0 hr2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
